-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x50000x64 : Shape := ⟨3, ![4, 50000, 64]⟩
abbrev S850000 : Shape := ⟨1, ![850000]⟩
abbrev S64x64 : Shape := ⟨2, ![64, 64]⟩
abbrev S64 : Shape := ⟨1, ![64]⟩
abbrev S_ : Shape := ⟨0, ![]⟩

class Facts : Prop where
  bcast_S_S4x50000x64 : S_.BroadcastsInDim S4x50000x64 (![] : Fin 0 → Fin S4x50000x64.rank)
  reducesTo_S4x50000x64_S_d0_1_2 : S4x50000x64.ReducesTo [0, 1, 2] S_
  h_S_ : 0 < S_.numel
  bcast_S_S850000 : S_.BroadcastsInDim S850000 (![] : Fin 0 → Fin S850000.rank)
  reducesTo_S850000_S_d0 : S850000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S4x50000x64 .f32) (main_arg1 : FVec F S850000 .f32) (main_arg2 : FVec F S64x64 .f32) (main_arg3 : FVec F S64 .f32) (main_arg4 : IVec S850000 32) (main_arg5 : IVec S850000 32) : IVec S_ 1 :=
  let main_v0 : FVec F S4x50000x64 .f32 := Host.absf main_arg0
  let main_cst : FVec F S_ .f32 := constant S_ .f32 0x7F800000#32
  let main_v1 : FVec F S4x50000x64 .f32 := broadcastInDim S4x50000x64 ![] bcast_S_S4x50000x64 main_cst
  let main_v2 : IVec S4x50000x64 1 := cmpf .olt main_v0 main_v1
  let main_c : IVec S_ 1 := constantI S_ 1 1#1
  let main_v3 : IVec S_ 1 := (fun x v => Host.reduce IntOp.andi x v reducesTo_S4x50000x64_S_d0_1_2 h_S_) main_v2 main_c
  let main_v4 : FVec F S850000 .f32 := Host.absf main_arg1
  let main_cst_0 : FVec F S_ .f32 := constant S_ .f32 0x7F800000#32
  let main_v5 : FVec F S850000 .f32 := broadcastInDim S850000 ![] bcast_S_S850000 main_cst_0
  let main_v6 : IVec S850000 1 := cmpf .olt main_v4 main_v5
  let main_c_1 : IVec S_ 1 := constantI S_ 1 1#1
  let main_v7 : IVec S_ 1 := (fun x v => Host.reduce IntOp.andi x v reducesTo_S850000_S_d0 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S4x50000x64 : Shape := ⟨3, ![4, 50000, 64]⟩
abbrev S850000 : Shape := ⟨1, ![850000]⟩
abbrev S64x64 : Shape := ⟨2, ![64, 64]⟩
abbrev S64 : Shape := ⟨1, ![64]⟩
abbrev S50000x4x64 : Shape := ⟨3, ![50000, 4, 64]⟩
abbrev S50000x256 : Shape := ⟨2, ![50000, 256]⟩
abbrev S_ : Shape := ⟨0, ![]⟩
abbrev S850000x1 : Shape := ⟨2, ![850000, 1]⟩
abbrev S850000x256 : Shape := ⟨2, ![850000, 256]⟩
abbrev S5000x256 : Shape := ⟨2, ![5000, 256]⟩
abbrev S4x5000x64 : Shape := ⟨3, ![4, 5000, 64]⟩
abbrev S5000x64 : Shape := ⟨2, ![5000, 64]⟩
abbrev S1x64 : Shape := ⟨2, ![1, 64]⟩
abbrev S1x5000x64 : Shape := ⟨3, ![1, 5000, 64]⟩

abbrev nBuf : Space → Nat
  | .hbm => 25
  | .vmem => 6
  | .smem => 0
  | _ => 0

abbrev bufTy : (tb : Table) → Fin (tcTables nBuf tb) → BufTy
  | .hbm, ⟨0, _⟩ => ⟨S4x50000x64, .f32⟩
  | .hbm, ⟨1, _⟩ => ⟨S850000, .f32⟩
  | .hbm, ⟨2, _⟩ => ⟨S64x64, .f32⟩
  | .hbm, ⟨3, _⟩ => ⟨S64, .f32⟩
  | .hbm, ⟨4, _⟩ => ⟨S850000, .i32⟩
  | .hbm, ⟨5, _⟩ => ⟨S850000, .i32⟩
  | .hbm, ⟨6, _⟩ => ⟨S50000x4x64, .f32⟩
  | .hbm, ⟨7, _⟩ => ⟨S50000x256, .f32⟩
  | .hbm, ⟨8, _⟩ => ⟨S_, .i32⟩
  | .hbm, ⟨9, _⟩ => ⟨S850000, .i32⟩
  | .hbm, ⟨10, _⟩ => ⟨S850000, .i1⟩
  | .hbm, ⟨11, _⟩ => ⟨S_, .i32⟩
  | .hbm, ⟨12, _⟩ => ⟨S850000, .i32⟩
  | .hbm, ⟨13, _⟩ => ⟨S850000, .i32⟩
  | .hbm, ⟨14, _⟩ => ⟨S850000, .i32⟩
  | .hbm, ⟨15, _⟩ => ⟨S850000x1, .i32⟩
  | .hbm, ⟨16, _⟩ => ⟨S850000x256, .f32⟩
  | .hbm, ⟨17, _⟩ => ⟨S850000x1, .f32⟩
  | .hbm, ⟨18, _⟩ => ⟨S850000x256, .f32⟩
  | .hbm, ⟨19, _⟩ => ⟨S850000x256, .f32⟩
  | .hbm, ⟨20, _⟩ => ⟨S_, .f32⟩
  | .hbm, ⟨21, _⟩ => ⟨S50000x256, .f32⟩
  | .hbm, ⟨22, _⟩ => ⟨S850000x1, .i32⟩
  | .hbm, ⟨23, _⟩ => ⟨S50000x256, .f32⟩
  | .hbm, ⟨24, _⟩ => ⟨S4x50000x64, .f32⟩
  | .local _ .vmem, ⟨0, _⟩ => ⟨S5000x256, .f32⟩
  | .local _ .vmem, ⟨1, _⟩ => ⟨S5000x256, .f32⟩
  | .local _ .vmem, ⟨2, _⟩ => ⟨S64x64, .f32⟩
  | .local _ .vmem, ⟨3, _⟩ => ⟨S64, .f32⟩
  | .local _ .vmem, ⟨4, _⟩ => ⟨S4x5000x64, .f32⟩
  | .local _ .vmem, ⟨5, _⟩ => ⟨S4x5000x64, .f32⟩
  | _, _ => ⟨S4x50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S4x50000x64_S50000x4x64_1_0_2 : S4x50000x64.Transposes [1, 0, 2] S50000x4x64
  shapeCasts_S50000x4x64_S50000x256 : S50000x4x64.ShapeCasts S50000x256
  bcast_S_S850000 : S_.BroadcastsInDim S850000 (![] : Fin 0 → Fin S850000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  inb_S64_S64_0 : ∀ a, (![0] : Fin 1 → Nat) a + S64.size a ≤ S64.size a
  h_S64 : 0 < S64.numel
  slices_S5000x256_o0_0_S5000x64 : S5000x256.Slices ![0, 0] S5000x64
  shapeCasts_S64_S1x64 : S64.ShapeCasts S1x64
  broadcasts_S1x64_S5000x64 : S1x64.Broadcasts S5000x64
  inb_S4x5000x64_S1x5000x64_0_0_0 : ∀ a, (![0, 0, 0] : Fin 3 → Nat) a + S1x5000x64.size a ≤ S4x5000x64.size a
  h_S1x5000x64 : 0 < S1x5000x64.numel
  shapeCasts_S1x5000x64_S5000x64 : S1x5000x64.ShapeCasts S5000x64
  shapeCasts_S5000x64_S1x5000x64 : S5000x64.ShapeCasts S1x5000x64
  slices_S5000x256_o0_64_S5000x64 : S5000x256.Slices ![0, 64] S5000x64
  inb_S4x5000x64_S1x5000x64_1_0_0 : ∀ a, (![1, 0, 0] : Fin 3 → Nat) a + S1x5000x64.size a ≤ S4x5000x64.size a
  slices_S5000x256_o0_128_S5000x64 : S5000x256.Slices ![0, 128] S5000x64
  inb_S4x5000x64_S1x5000x64_2_0_0 : ∀ a, (![2, 0, 0] : Fin 3 → Nat) a + S1x5000x64.size a ≤ S4x5000x64.size a
  slices_S5000x256_o0_192_S5000x64 : S5000x256.Slices ![0, 192] S5000x64
  inb_S4x5000x64_S1x5000x64_3_0_0 : ∀ a, (![3, 0, 0] : Fin 3 → Nat) a + S1x5000x64.size a ≤ S4x5000x64.size a
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x5000x64.size a ≤ S4x50000x64.size a
  hwx0_3 : ∀ i : grid0.Coords, EltTy.bits .f32 = 32 ∨ (Rect.block (s := S4x50000x64) S4x5000x64.size (cc0_transform_3 i) (hinb0_3 i)).WholeWords (EltTy.packing .f32)

variable [Facts₀]

def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v14) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S4x5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x50000x64 : Shape := ⟨3, ![4, 50000, 64]⟩
abbrev S850000 : Shape := ⟨1, ![850000]⟩
abbrev S64x64 : Shape := ⟨2, ![64, 64]⟩
abbrev S64 : Shape := ⟨1, ![64]⟩
abbrev S_ : Shape := ⟨0, ![]⟩
abbrev S850000x1 : Shape := ⟨2, ![850000, 1]⟩
abbrev S4x850000x64 : Shape := ⟨3, ![4, 850000, 64]⟩
abbrev S1x850000x1 : Shape := ⟨3, ![1, 850000, 1]⟩
abbrev S850000x4x64 : Shape := ⟨3, ![850000, 4, 64]⟩
abbrev S50000x4x64 : Shape := ⟨3, ![50000, 4, 64]⟩
abbrev S1x1x64 : Shape := ⟨3, ![1, 1, 64]⟩

abbrev nBuf : Space → Nat
  | .hbm => 43
  | .vmem => 0
  | .smem => 0
  | _ => 0

abbrev bufTy : (tb : Table) → Fin (tcTables nBuf tb) → BufTy
  | .hbm, ⟨0, _⟩ => ⟨S4x50000x64, .f32⟩
  | .hbm, ⟨1, _⟩ => ⟨S850000, .f32⟩
  | .hbm, ⟨2, _⟩ => ⟨S64x64, .f32⟩
  | .hbm, ⟨3, _⟩ => ⟨S64, .f32⟩
  | .hbm, ⟨4, _⟩ => ⟨S850000, .i32⟩
  | .hbm, ⟨5, _⟩ => ⟨S850000, .i32⟩
  | .hbm, ⟨6, _⟩ => ⟨S_, .i32⟩
  | .hbm, ⟨7, _⟩ => ⟨S850000, .i32⟩
  | .hbm, ⟨8, _⟩ => ⟨S850000, .i1⟩
  | .hbm, ⟨9, _⟩ => ⟨S_, .i32⟩
  | .hbm, ⟨10, _⟩ => ⟨S850000, .i32⟩
  | .hbm, ⟨11, _⟩ => ⟨S850000, .i32⟩
  | .hbm, ⟨12, _⟩ => ⟨S850000, .i32⟩
  | .hbm, ⟨13, _⟩ => ⟨S850000x1, .i32⟩
  | .hbm, ⟨14, _⟩ => ⟨S4x850000x64, .f32⟩
  | .hbm, ⟨15, _⟩ => ⟨S1x850000x1, .f32⟩
  | .hbm, ⟨16, _⟩ => ⟨S4x850000x64, .f32⟩
  | .hbm, ⟨17, _⟩ => ⟨S4x850000x64, .f32⟩
  | .hbm, ⟨18, _⟩ => ⟨S850000x4x64, .f32⟩
  | .hbm, ⟨19, _⟩ => ⟨S_, .f32⟩
  | .hbm, ⟨20, _⟩ => ⟨S50000x4x64, .f32⟩
  | .hbm, ⟨21, _⟩ => ⟨S850000x1, .i32⟩
  | .hbm, ⟨22, _⟩ => ⟨S50000x4x64, .f32⟩
  | .hbm, ⟨23, _⟩ => ⟨S4x50000x64, .f32⟩
  | .hbm, ⟨24, _⟩ => ⟨S4x50000x64, .f32⟩
  | .hbm, ⟨25, _⟩ => ⟨S1x1x64, .f32⟩
  | .hbm, ⟨26, _⟩ => ⟨S4x50000x64, .f32⟩
  | .hbm, ⟨27, _⟩ => ⟨S4x50000x64, .f32⟩
  | .hbm, ⟨28, _⟩ => ⟨S_, .f32⟩
  | .hbm, ⟨29, _⟩ => ⟨S4x50000x64, .f32⟩
  | .hbm, ⟨30, _⟩ => ⟨S4x50000x64, .i1⟩
  | .hbm, ⟨31, _⟩ => ⟨S_, .f32⟩
  | .hbm, ⟨32, _⟩ => ⟨S4x50000x64, .f32⟩
  | .hbm, ⟨33, _⟩ => ⟨S4x50000x64, .i1⟩
  | .hbm, ⟨34, _⟩ => ⟨S_, .f32⟩
  | .hbm, ⟨35, _⟩ => ⟨S_, .f32⟩
  | .hbm, ⟨36, _⟩ => ⟨S4x50000x64, .f32⟩
  | .hbm, ⟨37, _⟩ => ⟨S4x50000x64, .f32⟩
  | .hbm, ⟨38, _⟩ => ⟨S4x50000x64, .f32⟩
  | .hbm, ⟨39, _⟩ => ⟨S_, .f32⟩
  | .hbm, ⟨40, _⟩ => ⟨S4x50000x64, .f32⟩
  | .hbm, ⟨41, _⟩ => ⟨S4x50000x64, .f32⟩
  | .hbm, ⟨42, _⟩ => ⟨S4x50000x64, .f32⟩
  | _, _ => ⟨S4x50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_cst_0 : Ref sig .tc := ⟨.hbm, 31, rfl⟩
abbrev main_call0_v2 : Ref sig .tc := ⟨.hbm, 32, rfl⟩
abbrev main_call0_v3 : Ref sig .tc := ⟨.hbm, 33, rfl⟩
abbrev main_call0_cst_1 : Ref sig .tc := ⟨.hbm, 34, rfl⟩
abbrev main_call0_call0_v0 : Ref sig .tc := ⟨.hbm, 35, rfl⟩
abbrev main_call0_call0_v1 : Ref sig .tc := ⟨.hbm, 36, rfl⟩
abbrev main_call0_v4 : Ref sig .tc := ⟨.hbm, 37, rfl⟩
abbrev main_call0_v5 : Ref sig .tc := ⟨.hbm, 38, rfl⟩
abbrev main_call0_cst_2 : Ref sig .tc := ⟨.hbm, 39, rfl⟩
abbrev main_call0_v6 : Ref sig .tc := ⟨.hbm, 40, rfl⟩
abbrev main_call0_v7 : Ref sig .tc := ⟨.hbm, 41, rfl⟩
abbrev main_v19 : Ref sig .tc := ⟨.hbm, 42, rfl⟩

abbrev nD : Nat := 1
abbrev τ : Topo := Topo.v7x

variable {F : FTy → Type} [FloatOps F]

class Facts₀ : Prop where
  bcast_S_S850000 : S_.BroadcastsInDim S850000 (![] : Fin 0 → Fin S850000.rank)
  bcast_S850000_S850000x1_0 : S850000.BroadcastsInDim S850000x1 (![0] : Fin 1 → Fin S850000x1.rank)
  bcast_S850000_S1x850000x1_1 : S850000.BroadcastsInDim S1x850000x1 (![1] : Fin 1 → Fin S1x850000x1.rank)
  bcast_S1x850000x1_S4x850000x64_0_1_2 : S1x850000x1.BroadcastsInDim S4x850000x64 (![0, 1, 2] : Fin 3 → Fin S4x850000x64.rank)
  transposes_S4x850000x64_S850000x4x64_1_0_2 : S4x850000x64.Transposes [1, 0, 2] S850000x4x64
  bcast_S_S50000x4x64 : S_.BroadcastsInDim S50000x4x64 (![] : Fin 0 → Fin S50000x4x64.rank)
  transposes_S50000x4x64_S4x50000x64_1_0_2 : S50000x4x64.Transposes [1, 0, 2] S4x50000x64
  bcast_S64_S1x1x64_2 : S64.BroadcastsInDim S1x1x64 (![2] : Fin 1 → Fin S1x1x64.rank)
  bcast_S1x1x64_S4x50000x64_0_1_2 : S1x1x64.BroadcastsInDim S4x50000x64 (![0, 1, 2] : Fin 3 → Fin S4x50000x64.rank)
  bcast_S_S4x50000x64 : S_.BroadcastsInDim S4x50000x64 (![] : Fin 0 → Fin S4x50000x64.rank)
  gather_S4x50000x64_S850000x1_S4x850000x64_02_1_n_n_1_1_4164_wf : GatherDims.WF S4x50000x64 S850000x1 S4x850000x64 [0, 2] [1] [] [1] [] 1 ![4, 1, 64]
  scatter_S50000x4x64_S850000x1_S850000x4x64_12_0_0_1_wf : ScatterDims.WF S50000x4x64 S850000x1 S850000x4x64 [1, 2] [0] [0] 1
  dot_S4x50000x64_S64x64_S4x50000x64_2_0_01_1_n_n_wf : DotDims.WF S4x50000x64 S64x64 S4x50000x64 [2] [0] [0, 1] [1] [] []

variable [Facts₀]

def gather_S4x50000x64_S850000x1_S4x850000x64_02_1_n_n_1_1_4164 : GatherDims S4x50000x64 S850000x1 S4x850000x64 where
  offsetDims := [0, 2]
  collapsedSliceDims := [1]
  operandBatchingDims := []
  startIndicesBatchingDims := []
  startIndexMap := [1]
  indexVectorDim := 1
  sliceSizes := ![4, 1, 64]
  wf := gather_S4x50000x64_S850000x1_S4x850000x64_02_1_n_n_1_1_4164_wf
def scatter_S50000x4x64_S850000x1_S850000x4x64_12_0_0_1 : ScatterDims S50000x4x64 S850000x1 S850000x4x64 where
  updateWindowDims := [1, 2]
  insertedWindowDims := [0]
  scatterDimsToOperandDims := [0]
  indexVectorDim := 1
  wf := scatter_S50000x4x64_S850000x1_S850000x4x64_12_0_0_1_wf
def dot_S4x50000x64_S64x64_S4x50000x64_2_0_01_1_n_n : DotDims S4x50000x64 S64x64 S4x50000x64 where
  lhsContracting := [2]
  rhsContracting := [0]
  lhsNonContracting := [0, 1]
  rhsNonContracting := [1]
  lhsBatch := []
  rhsBatch := []
  wf := dot_S4x50000x64_S64x64_S4x50000x64_2_0_01_1_n_n_wf

class Facts : Prop extends Facts₀ where

variable [Facts]
-- ==== Proof.RefRun.lean ====
/-
  The reference program's run, read back by hand.

  The reference is a straight line of host operations: the column words wrapped into range (a negative word gets the
  node count added), a gather of the node rows x[:, cols, :], the product with the edge values laid along the batch and
  feature axes, a transpose to edge-major order, a segment sum over the row words (a scatter-add into zeros), a transpose
  back to batch-major order, the product with the weight matrix along the feature axis, the bias added, and ELU as the reference
  spells it: where v > 0 take v, elsewhere 1 · expm1 of (v with the positive entries replaced by 0). The three module-local
  functions (the ELU and its two selections) are unfolded at their call sites, so the whole program is one list of
  thirty-seven operations, and its run leaves the result buffer at the composition of the three stages below.
-/
import proofs.«119495_j39479339384913_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo
variable {F : FTy → Type} [FloatOps F]

/-- The column words with a negative word moved up by the node count. -/
def wrapCols (cols : (⟨S850000, .i32⟩ : BufTy).Contents (Elt F)) : (⟨S850000, .i32⟩ : BufTy).Contents (Elt F) :=
  select (cmpi .slt cols (broadcastInDim S850000 ![] bcast_S_S850000 (constantI S_ 32 0#32)))
    (addi cols (broadcastInDim S850000 ![] bcast_S_S850000 (constantI S_ 32 50000#32))) cols

/-- The aggregation stage: gathered node rows times edge values, summed per destination row, in node-major order. -/
def refAgg (x : (⟨S4x50000x64, .f32⟩ : BufTy).Contents (Elt F)) (vals : (⟨S850000, .f32⟩ : BufTy).Contents (Elt F))
    (rows cols : (⟨S850000, .i32⟩ : BufTy).Contents (Elt F)) : (⟨S50000x4x64, .f32⟩ : BufTy).Contents (Elt F) :=
  Host.scatterAdd scatter_S50000x4x64_S850000x1_S850000x4x64_12_0_0_1
    (broadcastInDim S50000x4x64 ![] bcast_S_S50000x4x64 (constant S_ .f32 0x00000000#32))
    (broadcastInDim S850000x1 ![0] bcast_S850000_S850000x1_0 rows)
    (transpose S850000x4x64 [1, 0, 2]
      (mulf (Host.gather gather_S4x50000x64_S850000x1_S4x850000x64_02_1_n_n_1_1_4164 x
          (broadcastInDim S850000x1 ![0] bcast_S850000_S850000x1_0 (wrapCols (F := F) cols)))
        (broadcastInDim S4x850000x64 ![0, 1, 2] bcast_S1x850000x1_S4x850000x64_0_1_2
          (broadcastInDim S1x850000x1 ![1] bcast_S850000_S1x850000x1_1 vals)))
      transposes_S4x850000x64_S850000x4x64_1_0_2)

/-- The dense stage: the aggregate in batch-major order times the weight matrix, plus the bias along the last axis. -/
def refLin (agg : (⟨S50000x4x64, .f32⟩ : BufTy).Contents (Elt F)) (w : (⟨S64x64, .f32⟩ : BufTy).Contents (Elt F)) (bias : (⟨S64, .f32⟩ : BufTy).Contents (Elt F)) :
    (⟨S4x50000x64, .f32⟩ : BufTy).Contents (Elt F) :=
  addf (Host.dotGeneral dot_S4x50000x64_S64x64_S4x50000x64_2_0_01_1_n_n none
      (transpose S4x50000x64 [1, 0, 2] agg transposes_S50000x4x64_S4x50000x64_1_0_2) w)
    (broadcastInDim S4x50000x64 ![0, 1, 2] bcast_S1x1x64_S4x50000x64_0_1_2
      (broadcastInDim S1x1x64 ![2] bcast_S64_S1x1x64_2 bias))

/-- ELU as the reference spells it. -/
def refElu (v : (⟨S4x50000x64, .f32⟩ : BufTy).Contents (Elt F)) : (⟨S4x50000x64, .f32⟩ : BufTy).Contents (Elt F) :=
  select (cmpf .ogt v (broadcastInDim S4x50000x64 ![] bcast_S_S4x50000x64 (constant S_ .f32 0x00000000#32))) v
    (mulf (broadcastInDim S4x50000x64 ![] bcast_S_S4x50000x64 (constant S_ .f32 0x3F800000#32))
      (Host.expm1 (select (cmpf .ogt v (broadcastInDim S4x50000x64 ![] bcast_S_S4x50000x64 (constant S_ .f32 0x00000000#32)))
        (broadcastInDim S4x50000x64 ![] bcast_S_S4x50000x64 (id (constant S_ .f32 0x00000000#32))) v)))

/-- @main's operations in order, the three module-local functions unfolded at their calls. -/
abbrev ops : List (HloOp τ sig (Elt F)) :=
  [ nullary main_c (constantI S_ 32 0#32),
    unary main_c main_v0 (broadcastInDim S850000 ![] bcast_S_S850000 : (⟨S_, .i32⟩ : BufTy).Contents (Elt F) → (⟨S850000, .i32⟩ : BufTy).Contents (Elt F)),
    binary main_arg5 main_v0 main_v1 (cmpi .slt : (⟨S850000, .i32⟩ : BufTy).Contents (Elt F) → (⟨S850000, .i32⟩ : BufTy).Contents (Elt F) → (⟨S850000, .i1⟩ : BufTy).Contents (Elt F)),
    nullary main_c_0 (constantI S_ 32 50000#32),
    unary main_c_0 main_v2 (broadcastInDim S850000 ![] bcast_S_S850000 : (⟨S_, .i32⟩ : BufTy).Contents (Elt F) → (⟨S850000, .i32⟩ : BufTy).Contents (Elt F)),
    binary main_arg5 main_v2 main_v3 (addi : (⟨S850000, .i32⟩ : BufTy).Contents (Elt F) → (⟨S850000, .i32⟩ : BufTy).Contents (Elt F) → (⟨S850000, .i32⟩ : BufTy).Contents (Elt F)),
    ternary main_v1 main_v3 main_arg5 main_v4 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v4 main_v5 (broadcastInDim S850000x1 ![0] bcast_S850000_S850000x1_0 : (⟨S850000, .i32⟩ : BufTy).Contents (Elt F) → (⟨S850000x1, .i32⟩ : BufTy).Contents (Elt F)),
    binary main_arg0 main_v5 main_v6 ((fun x i => Host.gather gather_S4x50000x64_S850000x1_S4x850000x64_02_1_n_n_1_1_4164 x i) : (⟨S4x50000x64, .f32⟩ : BufTy).Contents (Elt F) → (⟨S850000x1, .i32⟩ : BufTy).Contents (Elt F) → (⟨S4x850000x64, .f32⟩ : BufTy).Contents (Elt F)),
    unary main_arg1 main_v7 (broadcastInDim S1x850000x1 ![1] bcast_S850000_S1x850000x1_1 : (⟨S850000, .f32⟩ : BufTy).Contents (Elt F) → (⟨S1x850000x1, .f32⟩ : BufTy).Contents (Elt F)),
    unary main_v7 main_v8 (broadcastInDim S4x850000x64 ![0, 1, 2] bcast_S1x850000x1_S4x850000x64_0_1_2 : (⟨S1x850000x1, .f32⟩ : BufTy).Contents (Elt F) → (⟨S4x850000x64, .f32⟩ : BufTy).Contents (Elt F)),
    binary main_v6 main_v8 main_v9 (mulf : (⟨S4x850000x64, .f32⟩ : BufTy).Contents (Elt F) → (⟨S4x850000x64, .f32⟩ : BufTy).Contents (Elt F) → (⟨S4x850000x64, .f32⟩ : BufTy).Contents (Elt F)),
    unary main_v9 main_v10 ((transpose S850000x4x64 [1, 0, 2] · transposes_S4x850000x64_S850000x4x64_1_0_2) : (⟨S4x850000x64, .f32⟩ : BufTy).Contents (Elt F) → (⟨S850000x4x64, .f32⟩ : BufTy).Contents (Elt F)),
    nullary main_cst (constant S_ .f32 0x00000000#32),
    unary main_cst main_v11 (broadcastInDim S50000x4x64 ![] bcast_S_S50000x4x64 : (⟨S_, .f32⟩ : BufTy).Contents (Elt F) → (⟨S50000x4x64, .f32⟩ : BufTy).Contents (Elt F)),
    unary main_arg4 main_v12 (broadcastInDim S850000x1 ![0] bcast_S850000_S850000x1_0 : (⟨S850000, .i32⟩ : BufTy).Contents (Elt F) → (⟨S850000x1, .i32⟩ : BufTy).Contents (Elt F)),
    ternary main_v11 main_v12 main_v10 main_v13 ((fun x i u => Host.scatterAdd scatter_S50000x4x64_S850000x1_S850000x4x64_12_0_0_1 x i u) : (⟨S50000x4x64, .f32⟩ : BufTy).Contents (Elt F) → (⟨S850000x1, .i32⟩ : BufTy).Contents (Elt F) → (⟨S850000x4x64, .f32⟩ : BufTy).Contents (Elt F) → (⟨S50000x4x64, .f32⟩ : BufTy).Contents (Elt F)),
    unary main_v13 main_v14 ((transpose S4x50000x64 [1, 0, 2] · transposes_S50000x4x64_S4x50000x64_1_0_2) : (⟨S50000x4x64, .f32⟩ : BufTy).Contents (Elt F) → (⟨S4x50000x64, .f32⟩ : BufTy).Contents (Elt F)),
    binary main_v14 main_arg2 main_v15 ((fun l r => Host.dotGeneral dot_S4x50000x64_S64x64_S4x50000x64_2_0_01_1_n_n none l r) : (⟨S4x50000x64, .f32⟩ : BufTy).Contents (Elt F) → (⟨S64x64, .f32⟩ : BufTy).Contents (Elt F) → (⟨S4x50000x64, .f32⟩ : BufTy).Contents (Elt F)),
    unary main_arg3 main_v16 (broadcastInDim S1x1x64 ![2] bcast_S64_S1x1x64_2 : (⟨S64, .f32⟩ : BufTy).Contents (Elt F) → (⟨S1x1x64, .f32⟩ : BufTy).Contents (Elt F)),
    unary main_v16 main_v17 (broadcastInDim S4x50000x64 ![0, 1, 2] bcast_S1x1x64_S4x50000x64_0_1_2 : (⟨S1x1x64, .f32⟩ : BufTy).Contents (Elt F) → (⟨S4x50000x64, .f32⟩ : BufTy).Contents (Elt F)),
    binary main_v15 main_v17 main_v18 (addf : (⟨S4x50000x64, .f32⟩ : BufTy).Contents (Elt F) → (⟨S4x50000x64, .f32⟩ : BufTy).Contents (Elt F) → (⟨S4x50000x64, .f32⟩ : BufTy).Contents (Elt F)),
    TRef.nullary main_call0.cst (constant S_ .f32 0x00000000#32),
    TRef.unary main_call0.cst main_call0.v0 (broadcastInDim S4x50000x64 ![] bcast_S_S4x50000x64),
    TRef.binary (.of main_v18) main_call0.v0 main_call0.v1 (cmpf .ogt),
    TRef.nullary main_call0.cst_0 (constant S_ .f32 0x00000000#32),
    TRef.unary main_call0.cst_0 main_call0.v2 (broadcastInDim S4x50000x64 ![] bcast_S_S4x50000x64),
    TRef.binary (.of main_v18) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S4x50000x64 ![] bcast_S_S4x50000x64),
    TRef.ternary main_call0.v3 main_call0.call0.v1 (.of main_v18) main_call0.call0.v2 select,
    TRef.unary main_call0.call0.v2 main_call0.v5 Host.expm1,
    TRef.nullary main_call0.cst_2 (constant S_ .f32 0x3F800000#32),
    TRef.unary main_call0.cst_2 main_call0.v6 (broadcastInDim S4x50000x64 ![] bcast_S_S4x50000x64),
    TRef.binary main_call0.v6 main_call0.v5 main_call0.v7 mulf,
    TRef.ternary main_call0.v1 (.of main_v18) main_call0.v7 main_call0.call1.v0 select ]

set_option maxRecDepth 4096 in
theorem main_eq (c : Dev nD) : main (F := F) c = seq ops := by
  simp only [main, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., unary_bufs_sub .., nullary_bufs_sub .., unary_bufs_sub .., unary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

attribute [local irreducible] Host.gather Host.scatterAdd transpose Host.expm1 in
/-- The fold of the operations at the result buffer is the three stages composed: each operation's result read at its
    own buffer, the typed references' transports the identity. -/
theorem out_eq (V : Valuation τ sig (Elt F)) :
    after ops V (main_v19 : DevRef τ sig)
      = refElu (refLin (refAgg (V (main_arg0 : DevRef τ sig)) (V (main_arg1 : DevRef τ sig)) (V (main_arg4 : DevRef τ sig)) (V (main_arg5 : DevRef τ sig)))
          (V (main_arg2 : DevRef τ sig)) (V (main_arg3 : DevRef τ sig))) := by
  after_results_simp
  rfl

/-- On every device, from any memory with zero counters: every weakly fair execution of @main terminates with the result
    buffer at the three stages composed over the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19) = refElu (refLin (refAgg (m ((c.tc : Thread nD τ).loc main_arg0)) (m ((c.tc : Thread nD τ).loc main_arg1)) (m ((c.tc : Thread nD τ).loc main_arg4)) (m ((c.tc : Thread nD τ).loc main_arg5))) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v19).trans (out_eq _),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp)⟩)
    (run_seq scopedRefs_eq scopedSems_eq defs main (fun _ => ops) main_eq (fun _ => ops_sub) m ρ)

end Cert.ReferenceIdeal.HandRun

end
-- ==== Proof.Spec.lean ====
/-
  The function both programs compute, entry by entry, over the extended reals.

  The inputs: node features x[b, n, f] (4 batches, 50000 nodes, 64 features), one value per edge (850000 edges), a
  64×64 weight matrix, a bias of 64 entries, and per edge a destination row word and a source column word (the column
  word already wrapped: a negative word moved up by the node count).  An edge's source node is its column word read
  as a signed integer and clamped into the node range.  The aggregate at (n, b, f) is the sum, over the edges whose
  row word read as a signed integer is n, of x at the edge's source node times the edge's value (added to a zero).
  The dense stage multiplies the aggregate by the weight matrix along the feature axis and adds the bias; the result
  is ELU of that: v where v > 0, exp(min(v, 0)) − 1 elsewhere.
-/
import Idealize.ShloMosaic.Lib.ValueIdx
import Idealize.ShloMosaic.PureOps.Ideal.Laws

noncomputable section

namespace Cert.Gcn

open Idealize.ShloMosaic Idealize.ShloMosaic.ValueIdx

abbrev SX : Shape := ⟨3, ![4, 50000, 64]⟩
abbrev SE : Shape := ⟨1, ![850000]⟩
abbrev SW : Shape := ⟨2, ![64, 64]⟩
abbrev SB : Shape := ⟨1, ![64]⟩

/-- An edge's source node: its (wrapped) column word read signed and clamped into the node range. -/
def node (wc : IVec SE 32) (e : Fin 850000) : Fin 50000 :=
  ⟨min (wc (ix1 e)).toInt.toNat (50000 - 1), by omega⟩

/-- The aggregate at node n, batch b, feature f. -/
def agg (x : SX.Idx → EReal) (vals : SE.Idx → EReal) (rows wc : IVec SE 32) (n : Fin 50000) (b : Fin 4) (f : Fin 64) : EReal :=
  Ideal.ofBits .f32 0x00000000#32
    + ∑ e : Fin 850000, if (rows (ix1 e)).toInt = (n.val : Int) then x (ix3 b (node wc e) f) * vals (ix1 e) else 0

/-- The dense stage at batch b, node n, output feature o. -/
def lin (x : SX.Idx → EReal) (vals : SE.Idx → EReal) (rows wc : IVec SE 32) (w : SW.Idx → EReal) (bias : SB.Idx → EReal)
    (b : Fin 4) (n : Fin 50000) (o : Fin 64) : EReal :=
  (∑ f : Fin 64, agg x vals rows wc n b f * w (ix2 f o)) + bias (ix1 o)

/-- ELU on the extended reals. -/
def elu (v : EReal) : EReal := if (0 : EReal) < v then v else Ideal.exp (min v 0) - 1

/-- The whole result. -/
def out (x : SX.Idx → EReal) (vals : SE.Idx → EReal) (w : SW.Idx → EReal) (bias : SB.Idx → EReal) (rows wc : IVec SE 32) :
    SX.Idx → EReal :=
  fun i => elu (lin x vals rows wc w bias (i 0) (i 1) (i 2))

theorem out_ix3 (x : SX.Idx → EReal) (vals : SE.Idx → EReal) (w : SW.Idx → EReal) (bias : SB.Idx → EReal) (rows wc : IVec SE 32)
    (b : Fin 4) (n : Fin 50000) (o : Fin 64) :
    out x vals w bias rows wc (ix3 b n o) = elu (lin x vals rows wc w bias b n o) := rfl

/-- The word of 1.0 denotes 1. -/
theorem ofBits_one : Ideal.ofBits .f32 0x3F800000#32 = 1 := by
  simp [Ideal.ofBits, Ideal.ieee, -EReal.coe_mul]; norm_num

/-- A comparison bit "v > z" selects like the order does. -/
theorem select_ogt (v z a b : EReal) :
    Scalar.select (Ideal.cmp .ogt v z) a b = if z < v then a else b := by
  unfold Scalar.select Ideal.cmp
  by_cases h : z < v <;> simp [h]

/-- The kernel's spelling of ELU at one entry: where v > 0 take v, elsewhere exp(min(v, 0)) − 1, the zero and the one
    given by their words. -/
theorem elu_kernel (v : EReal) :
    Scalar.select (Ideal.cmp .ogt v (Ideal.ofBits .f32 0x00000000#32)) v
        (Ideal.exp (min v (Ideal.ofBits .f32 0x00000000#32)) - Ideal.ofBits .f32 0x3F800000#32)
      = elu v := by
  rw [select_ogt, Ideal.ofBits_zero_f32, ofBits_one]
  rfl

/-- The reference's spelling of ELU at one entry: where v > 0 take v, elsewhere 1 · (exp(w) − 1) with w the entry with
    a positive value replaced by 0 — on the branch taken w is v, which is its own minimum with 0. -/
theorem elu_reference (v : EReal) :
    Scalar.select (Ideal.cmp .ogt v (Ideal.ofBits .f32 0x00000000#32)) v
        (Ideal.ofBits .f32 0x3F800000#32
          * (Ideal.exp (Scalar.select (Ideal.cmp .ogt v (Ideal.ofBits .f32 0x00000000#32)) (Ideal.ofBits .f32 0x00000000#32) v) - 1))
      = elu v := by
  rw [select_ogt, select_ogt, Ideal.ofBits_zero_f32, ofBits_one]
  unfold elu
  by_cases h : (0 : EReal) < v
  · rw [if_pos h, if_pos h]
  · rw [if_neg h, if_neg h, if_neg h, one_mul, min_eq_left (not_lt.mp h)]

end Cert.Gcn

end
-- ==== Proof.LibGatherMid.lean ====
/-
  `stablehlo.gather` of `[B, 1, C]` slices of a rank-3 array along its middle axis, read at an index.

  What `x[:, idx, :]` lowers to when `x : [B, N, C]` and `idx : [R, 1]` is a column of integer positions on the middle
  axis: a gather with offset_dims `[0, 2]`, collapsed_slice_dims `[1]`, start_index_map `[1]`, index_vector_dim 1 and
  slice_sizes `[B, 1, C]`. The result has shape `[B, R, C]`: its axis 1 is the batch axis of the start indices (the one
  result axis that is not an offset axis), its axes 0 and 2 are the offset axes and run along the operand's axes 0 and 2
  (the operand's kept, i.e. non-collapsed, axes, in order). Result element `(b, r, c)` is `x` at batch `b`, middle
  position `idx[r, 0]` — read as a signed integer and clamped into `[0, N − 1]`, as StableHLO's gather clamps every
  start index — and column `c`.
-/
import Idealize.ShloMosaic.Lib.ValueIdx

namespace Cert.LibGatherMid

open Idealize.ShloMosaic Idealize.ShloMosaic.ValueIdx

section Mid
variable {α : Type}

/-- The dimension numbers of a gather of `[B, 1, C]` slices along the middle axis: operand `[B, N, C]`, start indices
    `[R, 1]`, result `[B, R, C]`; the result's axes 0 and 2 are the offset axes (they run along the operand's axes 0 and
    2), the operand's axis 1 is collapsed and is the one the start index names. Their conditions `wf` are decided on a
    program's literal shapes. -/
abbrev midDims (B N C R : Nat)
    (wf : GatherDims.WF ⟨3, ![B, N, C]⟩ ⟨2, ![R, 1]⟩ ⟨3, ![B, R, C]⟩ [0, 2] [1] [] [1] [] 1 ![B, 1, C]) :
    GatherDims ⟨3, ![B, N, C]⟩ ⟨2, ![R, 1]⟩ ⟨3, ![B, R, C]⟩ where
  offsetDims := [0, 2]
  collapsedSliceDims := [1]
  operandBatchingDims := []
  startIndicesBatchingDims := []
  startIndexMap := [1]
  indexVectorDim := 1
  sliceSizes := ![B, 1, C]
  wf := wf

/-- THE MIDDLE-AXIS GATHER READ AT A RESULT INDEX `y`: the operand at batch `y 0`, middle position `idx[y 1, 0]` (read
    signed and clamped into `[0, N − 1]`) and column `y 2`. -/
theorem gather_mid_apply {B N C R w : Nat} (hN : 0 < N)
    (wf : GatherDims.WF ⟨3, ![B, N, C]⟩ ⟨2, ![R, 1]⟩ ⟨3, ![B, R, C]⟩ [0, 2] [1] [] [1] [] 1 ![B, 1, C])
    (x : (⟨3, ![B, N, C]⟩ : Shape).Idx → α) (idx : IVec ⟨2, ![R, 1]⟩ w) (y : (⟨3, ![B, R, C]⟩ : Shape).Idx) :
    Host.gather (midDims B N C R wf) x idx y
      = x (ix3 (y 0) ⟨min (idx (ix2 (y 1) 0)).toInt.toNat (N - 1), by omega⟩ (y 2)) := by
  unfold Host.gather
  congr 1
  funext a
  refine Fin.ext ?_
  show (midDims B N C R wf).start y idx a + (midDims B N C R wf).batchCoord y a
    + (midDims B N C R wf).offCoord y a = _
  rw [GatherDims.batchCoord_eq_zero _ _ _ List.not_mem_nil]
  simp only [Nat.add_zero]
  -- the collapsed axis (the middle one): the clamped start index, no offset
  have h1 : (midDims B N C R wf).start y idx (1 : Fin 3) + (midDims B N C R wf).offCoord y (1 : Fin 3)
      = min (idx (ix2 (y 1) 0)).toInt.toNat (N - 1) := by
    rw [GatherDims.offCoord_eq_zero _ _ _
      (fun h => ((GatherDims.mem_sKept _ _).mp h).1 (List.mem_singleton.mpr rfl))]
    simp only [Nat.add_zero]
    unfold GatherDims.start
    rw [dif_pos (show (1 : Fin 3) ∈ (midDims B N C R wf).startIndexMap from List.mem_singleton.mpr rfl)]
    have hsi : (midDims B N C R wf).siIdx y ⟨List.idxOf (1 : Fin 3) (midDims B N C R wf).startIndexMap,
        List.idxOf_lt_length_iff.2 (List.mem_singleton.mpr rfl)⟩ = ix2 (y 1) 0 := by
      funext b; refine Fin.ext ?_
      match b with
      | ⟨0, _⟩ => rfl
      | ⟨1, _⟩ => rfl
    rw [hsi]
    rfl
  -- the first offset axis: start 0, the result's own coordinate 0
  have h0 : (midDims B N C R wf).start y idx (0 : Fin 3) + (midDims B N C R wf).offCoord y (0 : Fin 3)
      = (y 0).val := by
    have hne : ¬ ((0 : Fin 3) = 1) := by decide
    have hstart : (midDims B N C R wf).start y idx (0 : Fin 3) = 0 := by
      unfold GatherDims.start
      rw [dif_neg (fun h => hne (List.mem_singleton.mp h))]
    have hkept : (0 : Fin 3) ∈ (midDims B N C R wf).sKept :=
      (GatherDims.mem_sKept _ _).mpr ⟨fun h => hne (List.mem_singleton.mp h), List.not_mem_nil⟩
    have hoff : (midDims B N C R wf).offCoord y (0 : Fin 3) = (y 0).val := by
      unfold GatherDims.offCoord
      rw [dif_pos hkept]
      rfl
    rw [hstart, hoff, Nat.zero_add]
  -- the second offset axis: start 0, the result's own coordinate 2
  have h2 : (midDims B N C R wf).start y idx (2 : Fin 3) + (midDims B N C R wf).offCoord y (2 : Fin 3)
      = (y 2).val := by
    have hne : ¬ ((2 : Fin 3) = 1) := by decide
    have hstart : (midDims B N C R wf).start y idx (2 : Fin 3) = 0 := by
      unfold GatherDims.start
      rw [dif_neg (fun h => hne (List.mem_singleton.mp h))]
    have hkept : (2 : Fin 3) ∈ (midDims B N C R wf).sKept :=
      (GatherDims.mem_sKept _ _).mpr ⟨fun h => hne (List.mem_singleton.mp h), List.not_mem_nil⟩
    have hoff : (midDims B N C R wf).offCoord y (2 : Fin 3) = (y 2).val := by
      unfold GatherDims.offCoord
      rw [dif_pos hkept]
      rfl
    rw [hstart, hoff, Nat.zero_add]
  match a with
  | ⟨0, _⟩ => exact h0
  | ⟨1, _⟩ => exact h1
  | ⟨2, _⟩ => exact h2

/-- The same read with the result index given by its coordinates `(b, r, c)`. -/
theorem gather_mid_apply_ix3 {B N C R w : Nat} (hN : 0 < N)
    (wf : GatherDims.WF ⟨3, ![B, N, C]⟩ ⟨2, ![R, 1]⟩ ⟨3, ![B, R, C]⟩ [0, 2] [1] [] [1] [] 1 ![B, 1, C])
    (x : (⟨3, ![B, N, C]⟩ : Shape).Idx → α) (idx : IVec ⟨2, ![R, 1]⟩ w) (b : Fin B) (r : Fin R) (c : Fin C) :
    Host.gather (midDims B N C R wf) x idx (ix3 b r c)
      = x (ix3 b ⟨min (idx (ix2 r 0)).toInt.toNat (N - 1), by omega⟩ c) :=
  gather_mid_apply hN wf x idx (ix3 b r c)

end Mid

end Cert.LibGatherMid
-- ==== Proof.LibScatterSlabs.lean ====
/-
  The host's accumulating scatter of whole slabs into a rank-3 array, read at an index, with extended-real values.

  The scatter adds, to each operand element, every update element whose result index is that element. Here the operand
  is [N, B, C], the scatter indices are a column idx : [R, 1] of signed integers and the updates are [R, B, C], with
  update_window_dims [1, 2], inserted_window_dims [0], scatter_dims_to_operand_dims [0] and index_vector_dim 1: update
  slab r (all of its B × C elements) lands on operand slab idx[r, 0] — read as a signed integer and NOT clamped: a slab
  number outside [0, N) drops the update. Inside a slab nothing moves: update element (r, b, c) goes to operand element
  (idx[r, 0], b, c). So the result at (n, b, c) is the operand there plus the sum, over the update slabs r with
  idx[r, 0] = n, of the update at (r, b, c).
-/
import Idealize.ShloMosaic.Lib.ValueIdx

open scoped BigOperators

namespace Cert.LibScatterSlabs

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The dimension numbers of a scatter of whole slabs into a rank-3 array: operand [N, B, C], scatter indices [R, 1],
    updates [R, B, C]; the updates' axes 1 and 2 are the window axes (they run over a slab), the operand's axis 0 is
    inserted and is the one the scatter index names. Their conditions wf are decided on a program's literal shapes. -/
abbrev slabDims (N R B C : Nat)
    (wf : ScatterDims.WF ⟨3, ![N, B, C]⟩ ⟨2, ![R, 1]⟩ ⟨3, ![R, B, C]⟩ [1, 2] [0] [0] 1) :
    ScatterDims ⟨3, ![N, B, C]⟩ ⟨2, ![R, 1]⟩ ⟨3, ![R, B, C]⟩ where
  updateWindowDims := [1, 2]
  insertedWindowDims := [0]
  scatterDimsToOperandDims := [0]
  indexVectorDim := 1
  wf := wf

/-- On the operand's slab axis the window of update element j starts at idx[j₀, 0] read as a signed integer. -/
theorem slab_start0 {N R B C w : Nat}
    (wf : ScatterDims.WF ⟨3, ![N, B, C]⟩ ⟨2, ![R, 1]⟩ ⟨3, ![R, B, C]⟩ [1, 2] [0] [0] 1)
    (idx : IVec ⟨2, ![R, 1]⟩ w) (j : (⟨3, ![R, B, C]⟩ : Shape).Idx) :
    (slabDims N R B C wf).start j idx 0 = (idx (ix2 (j 0) 0)).toInt := by
  unfold ScatterDims.start
  rw [dif_pos (show (0 : Fin 3) ∈ (slabDims N R B C wf).scatterDimsToOperandDims from List.mem_singleton.mpr rfl)]
  have hsi : (slabDims N R B C wf).siIdx j ⟨List.idxOf (0 : Fin 3) (slabDims N R B C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The scatter index does not name the operand's axis 1: the window starts at 0 there. -/
theorem slab_start1 {N R B C w : Nat}
    (wf : ScatterDims.WF ⟨3, ![N, B, C]⟩ ⟨2, ![R, 1]⟩ ⟨3, ![R, B, C]⟩ [1, 2] [0] [0] 1)
    (idx : IVec ⟨2, ![R, 1]⟩ w) (j : (⟨3, ![R, B, C]⟩ : Shape).Idx) :
    (slabDims N R B C wf).start j idx 1 = 0 := by
  have hne : ¬ ((1 : Fin 3) = 0) := by decide
  unfold ScatterDims.start
  rw [dif_neg (fun h => hne (List.mem_singleton.mp h))]

/-- The scatter index does not name the operand's axis 2: the window starts at 0 there. -/
theorem slab_start2 {N R B C w : Nat}
    (wf : ScatterDims.WF ⟨3, ![N, B, C]⟩ ⟨2, ![R, 1]⟩ ⟨3, ![R, B, C]⟩ [1, 2] [0] [0] 1)
    (idx : IVec ⟨2, ![R, 1]⟩ w) (j : (⟨3, ![R, B, C]⟩ : Shape).Idx) :
    (slabDims N R B C wf).start j idx 2 = 0 := by
  have hne : ¬ ((2 : Fin 3) = 0) := by decide
  unfold ScatterDims.start
  rw [dif_neg (fun h => hne (List.mem_singleton.mp h))]

/-- The operand's slab axis is inserted: the window coordinate there is 0. -/
theorem slab_window0 {N R B C : Nat}
    (wf : ScatterDims.WF ⟨3, ![N, B, C]⟩ ⟨2, ![R, 1]⟩ ⟨3, ![R, B, C]⟩ [1, 2] [0] [0] 1)
    (j : (⟨3, ![R, B, C]⟩ : Shape).Idx) : (slabDims N R B C wf).window j 0 = 0 := by
  unfold ScatterDims.window
  rw [dif_neg]
  simp [ScatterDims.sKept, Shape.kept]

/-- On the operand's axis 1 (the first kept axis) the window coordinate is the update element's own coordinate 1. -/
theorem slab_window1 {N R B C : Nat}
    (wf : ScatterDims.WF ⟨3, ![N, B, C]⟩ ⟨2, ![R, 1]⟩ ⟨3, ![R, B, C]⟩ [1, 2] [0] [0] 1)
    (j : (⟨3, ![R, B, C]⟩ : Shape).Idx) : (slabDims N R B C wf).window j 1 = (j 1).val := by
  unfold ScatterDims.window
  rw [dif_pos (by simp [ScatterDims.sKept, Shape.kept])]
  rfl

/-- On the operand's axis 2 (the second kept axis) the window coordinate is the update element's own coordinate 2. -/
theorem slab_window2 {N R B C : Nat}
    (wf : ScatterDims.WF ⟨3, ![N, B, C]⟩ ⟨2, ![R, 1]⟩ ⟨3, ![R, B, C]⟩ [1, 2] [0] [0] 1)
    (j : (⟨3, ![R, B, C]⟩ : Shape).Idx) : (slabDims N R B C wf).window j 2 = (j 2).val := by
  unfold ScatterDims.window
  rw [dif_pos (by simp [ScatterDims.sKept, Shape.kept])]
  rfl

/-- Update element j = (r, b', c') lands on operand element (n, b, c) exactly when idx[r, 0], as a signed integer, is
    n, and b' = b, and c' = c. -/
theorem slab_resultIdx_iff {N R B C w : Nat}
    (wf : ScatterDims.WF ⟨3, ![N, B, C]⟩ ⟨2, ![R, 1]⟩ ⟨3, ![R, B, C]⟩ [1, 2] [0] [0] 1)
    (idx : IVec ⟨2, ![R, 1]⟩ w) (j : (⟨3, ![R, B, C]⟩ : Shape).Idx) (n : Fin N) (b : Fin B) (c : Fin C) :
    (slabDims N R B C wf).resultIdx? j idx = some (ix3 n b c)
      ↔ (idx (ix2 (j 0) 0)).toInt = (n.val : Int) ∧ (j 1).val = b.val ∧ (j 2).val = c.val := by
  have hsz0 : ((⟨3, ![N, B, C]⟩ : Shape).size 0 : Int) = (N : Int) := rfl
  have hsz1 : ((⟨3, ![N, B, C]⟩ : Shape).size 1 : Int) = (B : Int) := rfl
  have hsz2 : ((⟨3, ![N, B, C]⟩ : Shape).size 2 : Int) = (C : Int) := rfl
  have hn : (n.val : Int) < (N : Int) := by exact_mod_cast n.isLt
  have hb : (b.val : Int) < (B : Int) := by exact_mod_cast b.isLt
  have hc : (c.val : Int) < (C : Int) := by exact_mod_cast c.isLt
  unfold ScatterDims.resultIdx?
  split_ifs with h
  · rw [Option.some_inj]
    have h0 := h 0
    rw [slab_start0, slab_window0] at h0
    constructor
    · intro hf
      have hv0 := congrArg Fin.val (congrFun hf 0)
      have hv1 := congrArg Fin.val (congrFun hf 1)
      have hv2 := congrArg Fin.val (congrFun hf 2)
      simp only [slab_start0, slab_window0] at hv0
      simp only [slab_start1, slab_window1] at hv1
      simp only [slab_start2, slab_window2] at hv2
      change ((idx (ix2 (j 0) 0)).toInt + ((0 : Nat) : Int)).toNat = n.val at hv0
      change ((0 : Int) + (((j 1).val : Nat) : Int)).toNat = b.val at hv1
      change ((0 : Int) + (((j 2).val : Nat) : Int)).toNat = c.val at hv2
      refine ⟨?_, ?_, ?_⟩ <;> omega
    · rintro ⟨he, hj1, hj2⟩
      funext a
      refine Fin.ext ?_
      match a with
      | ⟨0, _⟩ =>
        show ((slabDims N R B C wf).start j idx 0 + ((slabDims N R B C wf).window j 0 : Int)).toNat = n.val
        rw [slab_start0, slab_window0, he]
        omega
      | ⟨1, _⟩ =>
        show ((slabDims N R B C wf).start j idx 1 + ((slabDims N R B C wf).window j 1 : Int)).toNat = b.val
        rw [slab_start1, slab_window1]
        omega
      | ⟨2, _⟩ =>
        show ((slabDims N R B C wf).start j idx 2 + ((slabDims N R B C wf).window j 2 : Int)).toNat = c.val
        rw [slab_start2, slab_window2]
        omega
  · constructor
    · intro hf; exact absurd hf (by simp)
    · rintro ⟨he, hj1, hj2⟩
      exfalso; apply h
      intro a
      match a with
      | ⟨0, _⟩ =>
        show 0 ≤ (slabDims N R B C wf).start j idx 0 + ((slabDims N R B C wf).window j 0 : Int)
          ∧ (slabDims N R B C wf).start j idx 0 + ((slabDims N R B C wf).window j 0 : Int)
            < ((⟨3, ![N, B, C]⟩ : Shape).size 0 : Int)
        rw [slab_start0, slab_window0, he, hsz0]
        omega
      | ⟨1, _⟩ =>
        show 0 ≤ (slabDims N R B C wf).start j idx 1 + ((slabDims N R B C wf).window j 1 : Int)
          ∧ (slabDims N R B C wf).start j idx 1 + ((slabDims N R B C wf).window j 1 : Int)
            < ((⟨3, ![N, B, C]⟩ : Shape).size 1 : Int)
        rw [slab_start1, slab_window1, hsz1, hj1]
        omega
      | ⟨2, _⟩ =>
        show 0 ≤ (slabDims N R B C wf).start j idx 2 + ((slabDims N R B C wf).window j 2 : Int)
          ∧ (slabDims N R B C wf).start j idx 2 + ((slabDims N R B C wf).window j 2 : Int)
            < ((⟨3, ![N, B, C]⟩ : Shape).size 2 : Int)
        rw [slab_start2, slab_window2, hsz2, hj2]
        omega

/-- THE SLAB SCATTER-ADD READ AT (n, b, c): the operand at (n, b, c) plus the sum, over the update slabs r whose
    scatter index idx[r, 0], read as a signed integer, is n, of the update at (r, b, c). (An index outside [0, N)
    equals no n: that update slab is dropped.) -/
theorem scatterAdd_slabs_apply {N R B C w : Nat}
    (wf : ScatterDims.WF ⟨3, ![N, B, C]⟩ ⟨2, ![R, 1]⟩ ⟨3, ![R, B, C]⟩ [1, 2] [0] [0] 1)
    (x : (⟨3, ![N, B, C]⟩ : Shape).Idx → EReal) (idx : IVec ⟨2, ![R, 1]⟩ w)
    (upd : (⟨3, ![R, B, C]⟩ : Shape).Idx → EReal) (n : Fin N) (b : Fin B) (c : Fin C) :
    Ideal.hostScatterAdd (slabDims N R B C wf) x idx upd (ix3 n b c)
      = x (ix3 n b c) + ∑ r : Fin R, if (idx (ix2 r 0)).toInt = (n.val : Int) then upd (ix3 r b c) else 0 := by
  unfold Ideal.hostScatterAdd
  congr 1
  rw [Finset.sum_filter, sum_idx3]
  refine Finset.sum_congr rfl fun r _ => ?_
  by_cases hc : (idx (ix2 r 0)).toInt = (n.val : Int)
  · rw [if_pos hc, Finset.sum_eq_single b]
    · rw [Finset.sum_eq_single c]
      · rw [if_pos ((slab_resultIdx_iff wf idx (ix3 r b c) n b c).mpr ⟨hc, rfl, rfl⟩)]
      · intro c' _ hne
        rw [if_neg (fun h => hne (Fin.ext ((slab_resultIdx_iff wf idx (ix3 r b c') n b c).mp h).2.2))]
      · intro hnot; exact absurd (Finset.mem_univ c) hnot
    · intro b' _ hne
      refine Finset.sum_eq_zero fun c' _ => ?_
      rw [if_neg (fun h => hne (Fin.ext ((slab_resultIdx_iff wf idx (ix3 r b' c') n b c).mp h).2.1))]
    · intro hnot; exact absurd (Finset.mem_univ b) hnot
  · rw [if_neg hc]
    refine Finset.sum_eq_zero fun b' _ => ?_
    refine Finset.sum_eq_zero fun c' _ => ?_
    rw [if_neg (fun h => hc ((slab_resultIdx_iff wf idx (ix3 r b' c') n b c).mp h).1)]

end Cert.LibScatterSlabs
-- ==== Proof.LibDotRows.lean ====
/-
  A stack of B matrices [M,K], each multiplied by one and the same matrix [K,N]: the host's dot_general that contracts
  the left operand's last axis with the right operand's first and keeps the left operand's two other axes in order,
  without batch axes.  At the ideal values its entry (b, m, n) is the sum over the K contracted positions l of the left
  operand at (b, m, l) times the right operand at (l, n).
-/
import Idealize.ShloMosaic.Lib.ValueIdx
import Idealize.ShloMosaic.PureOps.Ideal.Laws

noncomputable section

namespace Cert.LibDotRows

open Idealize.ShloMosaic Idealize.ShloMosaic.ValueIdx

variable {sl sr so : Shape} (d : DotDims sl sr so)

/-- Without batch axes, on a kept axis of the left operand the left index reads the result index at that axis's position
    among the kept axes. -/
theorem lhsIdx_val_of_kept {a : Fin sl.rank} (hb : d.lhsBatch = []) (hmem : a ∈ d.lhsNonContracting) (p : Nat)
    (hp : p < so.rank) (hpos : d.lhsNonContracting.idxOf a = p) (j : so.Idx) (k : d.contr.Idx) :
    (d.lhsIdx j k a).val = (j ⟨p, hp⟩).val := by
  unfold DotDims.lhsIdx
  rw [dif_neg (by rw [hb]; exact List.not_mem_nil), dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hpos])

/-- Without batch axes, on a kept axis of the right operand the right index reads the result index at the position after
    the left operand's kept axes. -/
theorem rhsIdx_val_of_kept {a : Fin sr.rank} (hb : d.rhsBatch = []) (hmem : a ∈ d.rhsNonContracting) (p : Nat)
    (hp : p < so.rank) (hpos : d.lhsBatch.length + d.lhsNonContracting.length + d.rhsNonContracting.idxOf a = p)
    (j : so.Idx) (k : d.contr.Idx) :
    (d.rhsIdx j k a).val = (j ⟨p, hp⟩).val := by
  unfold DotDims.rhsIdx
  rw [dif_neg (by rw [hb]; exact List.not_mem_nil), dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ hpos

/-- The arrangement of the dimension numbers of a stack of matrices times one matrix. -/
structure Stacked {B M K N : Nat} (d : DotDims ⟨3, ![B, M, K]⟩ ⟨2, ![K, N]⟩ ⟨3, ![B, M, N]⟩) : Prop where
  lc : d.lhsContracting = [2]
  rc : d.rhsContracting = [0]
  ln : d.lhsNonContracting = [0, 1]
  rn : d.rhsNonContracting = [1]
  lb : d.lhsBatch = []
  rb : d.rhsBatch = []

variable {B M K N : Nat} {φ₁ φ₂ : FTy}

theorem Stacked.rank {d : DotDims ⟨3, ![B, M, K]⟩ ⟨2, ![K, N]⟩ ⟨3, ![B, M, N]⟩} (h : Stacked d) : d.contr.rank = 1 := by
  rw [d.rank_contr, h.lc]; rfl

theorem Stacked.size {d : DotDims ⟨3, ![B, M, K]⟩ ⟨2, ![K, N]⟩ ⟨3, ![B, M, N]⟩} (h : Stacked d) :
    d.contr.size ⟨0, by rw [h.rank]; exact Nat.one_pos⟩ = K := by
  have := d.size_contr 0 (by rw [h.lc]; exact Nat.one_pos)
  rw [this]
  simp [h.lc]

/-- The entry of a stack of matrices times one matrix at the ideal values. -/
theorem dotGeneral_apply {d : DotDims ⟨3, ![B, M, K]⟩ ⟨2, ![K, N]⟩ ⟨3, ![B, M, N]⟩} (h : Stacked d)
    (prec : Option ContractPrecision) (sched : HostSchedule)
    (A : FVec Ideal ⟨3, ![B, M, K]⟩ φ₁) (W : FVec Ideal ⟨2, ![K, N]⟩ φ₂) (j : (⟨3, ![B, M, N]⟩ : Shape).Idx) :
    FloatOps.dotGeneral d prec sched A W j = ∑ l : Fin K, A (ix3 (j 0) (j 1) l) * W (ix2 l (j 2)) := by
  rw [Ideal.dotGeneral_apply]
  rw [← Equiv.sum_comp (contrEquiv1 d K h.rank h.size).symm]
  refine Finset.sum_congr rfl fun l _ => ?_
  have hl : d.lhsIdx j ((contrEquiv1 d K h.rank h.size).symm l) = ix3 (j 0) (j 1) l := by
    funext a; apply Fin.ext
    match a with
    | ⟨0, _⟩ => exact lhsIdx_val_of_kept d h.lb (by rw [h.ln]; exact List.mem_cons.mpr (Or.inl rfl)) 0 (by show 0 < 3; omega) (by rw [h.ln]; rfl) j _
    | ⟨1, _⟩ => exact lhsIdx_val_of_kept d h.lb (by rw [h.ln]; exact List.mem_cons_of_mem _ (List.mem_singleton.mpr rfl)) 1 (by show 1 < 3; omega) (by rw [h.ln]; rfl) j _
    | ⟨2, _⟩ => exact (d.lhsIdx_val_of_single h.lc j _).trans (contrEquiv1_symm_val d K h.rank h.size l)
  have hr : d.rhsIdx j ((contrEquiv1 d K h.rank h.size).symm l) = ix2 l (j 2) := by
    funext a; apply Fin.ext
    match a with
    | ⟨0, _⟩ => exact (d.rhsIdx_val_of_single h.rc j _).trans (contrEquiv1_symm_val d K h.rank h.size l)
    | ⟨1, _⟩ => exact rhsIdx_val_of_kept d h.rb (by rw [h.rn]; exact List.mem_singleton.mpr rfl) 2 (by show 2 < 3; omega) (by rw [h.lb, h.ln, h.rn]; rfl) j _
  rw [hl, hr]
  rfl

end Cert.LibDotRows

end
-- ==== Proof.LibAxes.lean ====
/-
  Layout operations on rank-3 arrays read at an index, with every index written by its coordinates: the exchange of
  the first two axes, a vector laid along the middle axis or along the last axis of an array with the other two axes
  of extent one, such an array spread over the full extents, a single column spread over the columns of a matrix, and
  a stack of rows [n, b, c] flattened to a matrix [n, b·c].
-/
import Idealize.ShloMosaic.Lib.ValueIdx
import Idealize.ShloMosaic.Lib.Pipeline.Value

namespace Cert.LibAxes

open Idealize.ShloMosaic Idealize.ShloMosaic.ValueIdx

variable {α : Type}

/-- Exchanging the first two axes of [a, b, c]: the result at (j, i, k) is the operand at (i, j, k). -/
theorem transpose_102_apply {a b c : ℕ} (x : (⟨3, ![a, b, c]⟩ : Shape).Idx → α)
    (h : (⟨3, ![a, b, c]⟩ : Shape).Transposes [1, 0, 2] ⟨3, ![b, a, c]⟩) (j : Fin b) (i : Fin a) (k : Fin c) :
    transpose ⟨3, ![b, a, c]⟩ [1, 0, 2] x h (ix3 j i k) = x (ix3 i j k) :=
  transpose_apply _ x h _ _ fun q => match q with | ⟨0, _⟩ => rfl | ⟨1, _⟩ => rfl | ⟨2, _⟩ => rfl

/-- A vector [r] laid along the middle axis of [1, r, 1]: at (0, e, 0) it is the vector at e. -/
theorem broadcastInDim_mid_apply {r : ℕ} (x : (⟨1, ![r]⟩ : Shape).Idx → α)
    (h : (⟨1, ![r]⟩ : Shape).BroadcastsInDim ⟨3, ![1, r, 1]⟩ ![1]) (u v : Fin 1) (e : Fin r) :
    broadcastInDim ⟨3, ![1, r, 1]⟩ ![1] h x (ix3 u e v) = x (ix1 e) := by
  refine broadcastInDim_apply _ h x _ _ (fun q => ?_)
  obtain rfl : q = 0 := Subsingleton.elim _ _
  show e.val = if r = 1 then 0 else e.val
  have := e.isLt
  split <;> omega

/-- A vector [c] laid along the last axis of [1, 1, c]: at (0, 0, k) it is the vector at k. -/
theorem broadcastInDim_last_apply {c : ℕ} (x : (⟨1, ![c]⟩ : Shape).Idx → α)
    (h : (⟨1, ![c]⟩ : Shape).BroadcastsInDim ⟨3, ![1, 1, c]⟩ ![2]) (u v : Fin 1) (k : Fin c) :
    broadcastInDim ⟨3, ![1, 1, c]⟩ ![2] h x (ix3 u v k) = x (ix1 k) := by
  refine broadcastInDim_apply _ h x _ _ (fun q => ?_)
  obtain rfl : q = 0 := Subsingleton.elim _ _
  show k.val = if c = 1 then 0 else k.val
  have := k.isLt
  split <;> omega

/-- An array [1, r, 1] spread over [b, r, c]: at (i, e, k) it is the operand at (0, e, 0). -/
theorem broadcastInDim_1r1_apply {b r c : ℕ} (y : (⟨3, ![1, r, 1]⟩ : Shape).Idx → α)
    (h : (⟨3, ![1, r, 1]⟩ : Shape).BroadcastsInDim ⟨3, ![b, r, c]⟩ ![0, 1, 2]) (i : Fin b) (e : Fin r) (k : Fin c) :
    broadcastInDim ⟨3, ![b, r, c]⟩ ![0, 1, 2] h y (ix3 i e k) = y (ix3 (0 : Fin 1) e (0 : Fin 1)) := by
  refine broadcastInDim_apply _ h y _ _ (fun q => ?_)
  match q with
  | ⟨0, _⟩ => rfl
  | ⟨1, _⟩ =>
    show e.val = if r = 1 then 0 else e.val
    have := e.isLt
    split <;> omega
  | ⟨2, _⟩ => rfl

/-- An array [1, 1, c] spread over [b, n, c]: at (i, m, k) it is the operand at (0, 0, k). -/
theorem broadcastInDim_11c_apply {b n c : ℕ} (y : (⟨3, ![1, 1, c]⟩ : Shape).Idx → α)
    (h : (⟨3, ![1, 1, c]⟩ : Shape).BroadcastsInDim ⟨3, ![b, n, c]⟩ ![0, 1, 2]) (i : Fin b) (m : Fin n) (k : Fin c) :
    broadcastInDim ⟨3, ![b, n, c]⟩ ![0, 1, 2] h y (ix3 i m k) = y (ix3 (0 : Fin 1) (0 : Fin 1) k) := by
  refine broadcastInDim_apply _ h y _ _ (fun q => ?_)
  match q with
  | ⟨0, _⟩ => rfl
  | ⟨1, _⟩ => rfl
  | ⟨2, _⟩ =>
    show k.val = if c = 1 then 0 else k.val
    have := k.isLt
    split <;> omega

/-- A single column [r, 1] spread over the columns of [r, c]: at (e, k) it is the column at (e, 0). -/
theorem broadcastInDim_col_spread_apply {r c : ℕ} (y : (⟨2, ![r, 1]⟩ : Shape).Idx → α)
    (h : (⟨2, ![r, 1]⟩ : Shape).BroadcastsInDim ⟨2, ![r, c]⟩ ![0, 1]) (e : Fin r) (k : Fin c) :
    broadcastInDim ⟨2, ![r, c]⟩ ![0, 1] h y (ix2 e k) = y (ix2 e (0 : Fin 1)) := by
  refine broadcastInDim_apply _ h y _ _ (fun q => ?_)
  match q with
  | ⟨0, _⟩ =>
    show e.val = if r = 1 then 0 else e.val
    have := e.isLt
    split <;> omega
  | ⟨1, _⟩ => rfl

/-- A stack of rows [n, b, c] flattened to a matrix [n, b·c]: the matrix at (m, j), with j = c·i + k, is the stack at
    (m, i, k). -/
theorem shapeCast_flatten_apply {n b c bc : ℕ} (x : (⟨3, ![n, b, c]⟩ : Shape).Idx → α)
    (h : (⟨3, ![n, b, c]⟩ : Shape).ShapeCasts ⟨2, ![n, bc]⟩) (hbc : bc = b * c) (m : Fin n) (i : Fin b) (k : Fin c) (j : Fin bc)
    (hj : j.val = c * i.val + k.val) :
    shapeCast ⟨2, ![n, bc]⟩ x h (ix2 m j) = x (ix3 m i k) := by
  refine shapeCast_apply x h _ _ ?_
  rw [Shape.rowMajor_val_three, Shape.rowMajor_val_two]
  show (m.val * b + i.val) * c + k.val = m.val * bc + j.val
  rw [hj, hbc, Nat.add_mul, Nat.mul_assoc, Nat.mul_comm i.val c]
  omega

end Cert.LibAxes
-- ==== Proof.LibRows.lean ====
/-
  `stablehlo.gather` of whole rows of a matrix, and of single elements of a flat array, read at an index.

  What `x[idx]` lowers to when `x : [N, C]` is a matrix and `idx : [R, 1]` a column of integer row numbers: a gather with
  offset_dims `[1]`, collapsed_slice_dims `[0]`, start_index_map `[0]`, index_vector_dim 1 and slice_sizes `[1, C]`.
  Result element `(r, c)` is `x` at row `idx[r, 0]` — read as a signed integer and clamped into `[0, N − 1]`, as
  StableHLO's gather clamps every start index — and column `c`. The same with a flat operand `x : [N]` (offset_dims
  `[]`, slice_sizes `[1]`): result element `r` is `x` at the clamped `idx[r, 0]`.
-/
import Idealize.ShloMosaic.Lib.ValueIdx

namespace Cert.LibRows

open Idealize.ShloMosaic Idealize.ShloMosaic.ValueIdx

section Rows
variable {α : Type}

/-- The dimension numbers of a gather of whole rows: operand `[N, C]`, start indices `[R, 1]`, result `[R, C]`; the
    result's axis 1 is the offset axis (it runs along a row), the operand's axis 0 is collapsed and is the one the start
    index names. Their conditions `wf` are decided on a program's literal shapes. -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, c)`: the operand at row `idx[r, 0]` (read signed and clamped into `[0, N − 1]`) and
    column `c`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (y : (⟨2, ![R, C]⟩ : Shape).Idx) :
    Host.gather (rowsDims N R C wf) x idx y
      = x (ix2 ⟨min (idx (ix2 (y 0) 0)).toInt.toNat (N - 1), by omega⟩ (y 1)) := by
  unfold Host.gather
  congr 1
  funext a
  refine Fin.ext ?_
  show (rowsDims N R C wf).start y idx a + (rowsDims N R C wf).batchCoord y a + (rowsDims N R C wf).offCoord y a = _
  rw [GatherDims.batchCoord_eq_zero _ _ _ List.not_mem_nil]
  simp only [Nat.add_zero]
  -- the collapsed axis: the clamped start index, no offset
  have h0 : (rowsDims N R C wf).start y idx (0 : Fin 2) + (rowsDims N R C wf).offCoord y (0 : Fin 2)
      = min (idx (ix2 (y 0) 0)).toInt.toNat (N - 1) := by
    rw [GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    have hsi : (rowsDims N R C wf).siIdx y ⟨List.idxOf (0 : Fin 2) (rowsDims N R C wf).startIndexMap,
        List.idxOf_lt_length_iff.2 (List.mem_singleton.mpr rfl)⟩ = ix2 (y 0) 0 := by
      funext b; refine Fin.ext ?_
      match b with
      | ⟨0, _⟩ => rfl
      | ⟨1, _⟩ => rfl
    rw [hsi]
    rfl
  -- the offset axis: start 0, the result's own column
  have h1 : (rowsDims N R C wf).start y idx (1 : Fin 2) + (rowsDims N R C wf).offCoord y (1 : Fin 2)
      = (y 1).val := by
    have hne : ¬ ((1 : Fin 2) = 0) := by decide
    have hstart : (rowsDims N R C wf).start y idx (1 : Fin 2) = 0 := by
      unfold GatherDims.start
      rw [dif_neg (fun h => hne (List.mem_singleton.mp h))]
    have hkept : (1 : Fin 2) ∈ (rowsDims N R C wf).sKept :=
      (GatherDims.mem_sKept _ _).mpr ⟨fun h => hne (List.mem_singleton.mp h), List.not_mem_nil⟩
    have hoff : (rowsDims N R C wf).offCoord y (1 : Fin 2) = (y 1).val := by
      unfold GatherDims.offCoord
      rw [dif_pos hkept]
      rfl
    rw [hstart, hoff, Nat.zero_add]
  match a with
  | ⟨0, _⟩ => exact h0
  | ⟨1, _⟩ => exact h1

/-- The same read with the result index given by its coordinates `(r, c)`. -/
theorem gather_rows_apply_ix2 {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowsDims N R C wf) x idx (ix2 r c)
      = x (ix2 ⟨min (idx (ix2 r 0)).toInt.toNat (N - 1), by omega⟩ c) :=
  gather_rows_apply hN wf x idx (ix2 r c)

end Rows

section Take1
variable {α : Type}

/-- The dimension numbers of a gather of single elements of a flat array: operand `[N]`, start indices `[R, 1]`, result
    `[R]`; no offset axis, the operand's only axis is collapsed and is the one the start index names. -/
abbrev take1Dims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE ELEMENT GATHER READ AT `r`: the operand at `idx[r, 0]`, read signed and clamped into `[0, N − 1]`. -/
theorem gather_take1_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (y : (⟨1, ![R]⟩ : Shape).Idx) :
    Host.gather (take1Dims N R wf) x idx y
      = x (ix1 ⟨min (idx (ix2 (y 0) 0)).toInt.toNat (N - 1), by omega⟩) := by
  unfold Host.gather
  congr 1
  funext a
  obtain rfl : a = 0 := Subsingleton.elim _ _
  refine Fin.ext ?_
  show (take1Dims N R wf).start y idx 0 + (take1Dims N R wf).batchCoord y 0 + (take1Dims N R wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (take1Dims N R wf).startIndexMap from List.mem_singleton.mpr rfl)]
  have hsi : (take1Dims N R wf).siIdx y ⟨List.idxOf (0 : Fin 1) (take1Dims N R wf).startIndexMap,
      List.idxOf_lt_length_iff.2 (List.mem_singleton.mpr rfl)⟩ = ix2 (y 0) 0 := by
    funext b; refine Fin.ext ?_
    match b with
    | ⟨0, _⟩ => rfl
    | ⟨1, _⟩ => rfl
  rw [hsi]
  rfl

/-- The same read with the result index given by its coordinate `r`. -/
theorem gather_take1_apply_ix1 {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (take1Dims N R wf) x idx (ix1 r)
      = x (ix1 ⟨min (idx (ix2 r 0)).toInt.toNat (N - 1), by omega⟩) :=
  gather_take1_apply hN wf x idx (ix1 r)

end Take1

end Cert.LibRows
-- ==== Proof.LibLayout.lean ====
/-
  Small layout operations read at an index, and the gather of rows under a row-wise map.

  A reshape keeps the elements in row-major order, so a vector `[n]` reshaped to a single row `[1, n]` or to a single
  column `[n, 1]` (and back) reads the same element at the matching position; a broadcast along a new unit axis does the
  same. A unit-stride slice reads the operand at the index shifted by the offsets: the row blocks `0–63`, `64–127`, `128`
  and `129` of a `130 × 64` matrix, and the first half of a flat array. Gathering whole rows commutes with any map that
  acts on each row separately, because the gathered row is a row of the operand.
-/
import Idealize.ShloMosaic.Lib.ValueIdx
import Idealize.ShloMosaic.Lib.Pipeline.Value
import proofs.«119495_j39479339384913_2_alg».proof.Proof.LibRows

namespace Cert.LibLayout

open Idealize.ShloMosaic Idealize.ShloMosaic.ValueIdx Cert.LibRows

/-! ## Gathering rows commutes with a row-wise map -/

section RowsMap
variable {α β : Type}

/-- GATHERING ROWS COMMUTES WITH A ROW-WISE MAP: if every row of the operand is the image under `f` of the matching row of
    `x`, then every gathered row is the image under `f` of the matching gathered row of `x`. -/
theorem gather_rows_map {N R C D w : Nat} (hN : 0 < N)
    (wfC : GatherDims.WF ⟨2, ![N, C]⟩ ⟨2, ![R, 1]⟩ ⟨2, ![R, C]⟩ [1] [0] [] [0] [] 1 ![1, C])
    (wfD : GatherDims.WF ⟨2, ![N, D]⟩ ⟨2, ![R, 1]⟩ ⟨2, ![R, D]⟩ [1] [0] [] [0] [] 1 ![1, D])
    (f : (Fin C → α) → Fin D → β) (x : (⟨2, ![N, C]⟩ : Shape).Idx → α) (idx : IVec ⟨2, ![R, 1]⟩ w) :
    Host.gather (rowsDims N R D wfD) (fun i => f (fun k => x (ix2 (i 0) k)) (i 1)) idx
      = fun y => f (fun k => Host.gather (rowsDims N R C wfC) x idx (ix2 (y 0) k)) (y 1) := by
  funext y
  obtain ⟨r, q, rfl⟩ : ∃ r q, y = ix2 r q := ⟨y 0, y 1, eq_ix2 y⟩
  show Host.gather (rowsDims N R D wfD) (fun i => f (fun k => x (ix2 (i 0) k)) (i 1)) idx (ix2 r q)
      = f (fun k => Host.gather (rowsDims N R C wfC) x idx (ix2 r k)) q
  rw [gather_rows_apply_ix2 hN wfD,
    show (fun k => Host.gather (rowsDims N R C wfC) x idx (ix2 r k))
        = fun k => x (ix2 ⟨min (idx (ix2 r 0)).toInt.toNat (N - 1), by omega⟩ k)
      from funext fun k => gather_rows_apply_ix2 hN wfC x idx r k]
  rfl

end RowsMap

/-! ## Reshapes and broadcasts between a vector, a single row and a single column -/

section Reshape
variable {α : Type}

/-- A vector `[n]` reshaped to a single row `[1, n]`, read at `(0, j)`, is the vector at `j`. -/
theorem shapeCast_row_apply {n : Nat} (x : (⟨1, ![n]⟩ : Shape).Idx → α)
    (h : (⟨1, ![n]⟩ : Shape).ShapeCasts ⟨2, ![1, n]⟩) (j : Fin n) :
    shapeCast ⟨2, ![1, n]⟩ x h (ix2 0 j) = x (ix1 j) := by
  refine shapeCast_apply x h _ _ ?_
  rw [Shape.rowMajor_val_one, Shape.rowMajor_val_two]
  show j.val = 0 * n + j.val
  omega

/-- A vector `[n]` broadcast to a single row `[1, n]` (its axis sent to axis 1), read at `(0, j)`, is the vector at
    `j`. -/
theorem broadcastInDim_row_apply {n : Nat} (x : (⟨1, ![n]⟩ : Shape).Idx → α)
    (h : (⟨1, ![n]⟩ : Shape).BroadcastsInDim ⟨2, ![1, n]⟩ ![1]) (j : Fin n) :
    broadcastInDim ⟨2, ![1, n]⟩ ![1] h x (ix2 0 j) = x (ix1 j) := by
  refine broadcastInDim_apply _ h x _ _ (fun a => ?_)
  obtain rfl : a = 0 := Subsingleton.elim _ _
  show j.val = if n = 1 then 0 else j.val
  have := j.isLt
  split <;> omega

/-- A vector `[r]` reshaped to a single column `[r, 1]`, read at `(e, 0)`, is the vector at `e`. -/
theorem shapeCast_col_apply {r : Nat} (x : (⟨1, ![r]⟩ : Shape).Idx → α)
    (h : (⟨1, ![r]⟩ : Shape).ShapeCasts ⟨2, ![r, 1]⟩) (e : Fin r) :
    shapeCast ⟨2, ![r, 1]⟩ x h (ix2 e 0) = x (ix1 e) := by
  refine shapeCast_apply x h _ _ ?_
  rw [Shape.rowMajor_val_one, Shape.rowMajor_val_two]
  show e.val = e.val * 1 + 0
  omega

/-- A vector `[r]` broadcast to a single column `[r, 1]` (its axis sent to axis 0), read at `(e, 0)`, is the vector at
    `e`. -/
theorem broadcastInDim_col_apply {r : Nat} (x : (⟨1, ![r]⟩ : Shape).Idx → α)
    (h : (⟨1, ![r]⟩ : Shape).BroadcastsInDim ⟨2, ![r, 1]⟩ ![0]) (e : Fin r) :
    broadcastInDim ⟨2, ![r, 1]⟩ ![0] h x (ix2 e 0) = x (ix1 e) := by
  refine broadcastInDim_apply _ h x _ _ (fun a => ?_)
  obtain rfl : a = 0 := Subsingleton.elim _ _
  show e.val = if r = 1 then 0 else e.val
  have := e.isLt
  split <;> omega

/-- A single row `[1, n]` reshaped to a vector `[n]`, read at `j`, is the row at `(0, j)`. -/
theorem shapeCast_unrow_apply {n : Nat} (x : (⟨2, ![1, n]⟩ : Shape).Idx → α)
    (h : (⟨2, ![1, n]⟩ : Shape).ShapeCasts ⟨1, ![n]⟩) (j : Fin n) :
    shapeCast ⟨1, ![n]⟩ x h (ix1 j) = x (ix2 0 j) := by
  refine shapeCast_apply x h _ _ ?_
  rw [Shape.rowMajor_val_one, Shape.rowMajor_val_two]
  show 0 * n + j.val = j.val
  omega

/-- A single column `[r, 1]` reshaped to a vector `[r]`, read at `e`, is the column at `(e, 0)`. -/
theorem shapeCast_uncol_apply {r : Nat} (x : (⟨2, ![r, 1]⟩ : Shape).Idx → α)
    (h : (⟨2, ![r, 1]⟩ : Shape).ShapeCasts ⟨1, ![r]⟩) (e : Fin r) :
    shapeCast ⟨1, ![r]⟩ x h (ix1 e) = x (ix2 e 0) := by
  refine shapeCast_apply x h _ _ ?_
  rw [Shape.rowMajor_val_one, Shape.rowMajor_val_two]
  show e.val * 1 + 0 = e.val
  omega

end Reshape

/-! ## Unit-stride slices: row blocks of a matrix, a prefix of a flat array -/

section Slice
variable {α : Type}

/-- A block of `m` whole rows of a matrix `[M, C]` starting at row `o`, read at `(k, j)`, is the matrix at row `o + k`
    (given as any `i` with that value) and column `j`. -/
theorem slice_rows_apply {M m C o : Nat} (x : (⟨2, ![M, C]⟩ : Shape).Idx → α)
    (h : (⟨2, ![M, C]⟩ : Shape).Slices ![o, 0] ⟨2, ![m, C]⟩) (k : Fin m) (j : Fin C) (i : Fin M)
    (hi : i.val = o + k.val) :
    extractStridedSlice ⟨2, ![m, C]⟩ ![o, 0] x h (ix2 k j) = x (ix2 i j) := by
  refine extractStridedSlice_apply _ x h _ _ (fun a => ?_)
  match a with
  | ⟨0, _⟩ => exact hi
  | ⟨1, _⟩ => exact (Nat.zero_add j.val).symm

/-- Rows `0–63` of a `130 × 64` matrix, read at `(k, j)`: the matrix at `(k, j)`. -/
theorem slice_rows_0_apply (x : (⟨2, ![130, 64]⟩ : Shape).Idx → α)
    (h : (⟨2, ![130, 64]⟩ : Shape).Slices ![0, 0] ⟨2, ![64, 64]⟩) (k j : Fin 64) :
    extractStridedSlice ⟨2, ![64, 64]⟩ ![0, 0] x h (ix2 k j) = x (ix2 ⟨k.val, by omega⟩ j) :=
  slice_rows_apply x h k j ⟨k.val, by omega⟩ (Nat.zero_add k.val).symm

/-- Rows `64–127` of a `130 × 64` matrix, read at `(k, j)`: the matrix at `(k + 64, j)`. -/
theorem slice_rows_64_apply (x : (⟨2, ![130, 64]⟩ : Shape).Idx → α)
    (h : (⟨2, ![130, 64]⟩ : Shape).Slices ![64, 0] ⟨2, ![64, 64]⟩) (k j : Fin 64) :
    extractStridedSlice ⟨2, ![64, 64]⟩ ![64, 0] x h (ix2 k j) = x (ix2 ⟨k.val + 64, by omega⟩ j) :=
  slice_rows_apply x h k j ⟨k.val + 64, by omega⟩ (Nat.add_comm k.val 64)

/-- Row `128` of a `130 × 64` matrix as a single row, read at `(0, j)`: the matrix at `(128, j)`. -/
theorem slice_rows_128_apply (x : (⟨2, ![130, 64]⟩ : Shape).Idx → α)
    (h : (⟨2, ![130, 64]⟩ : Shape).Slices ![128, 0] ⟨2, ![1, 64]⟩) (j : Fin 64) :
    extractStridedSlice ⟨2, ![1, 64]⟩ ![128, 0] x h (ix2 0 j) = x (ix2 ⟨128, by omega⟩ j) :=
  slice_rows_apply x h 0 j ⟨128, by omega⟩ rfl

/-- Row `129` of a `130 × 64` matrix as a single row, read at `(0, j)`: the matrix at `(129, j)`. -/
theorem slice_rows_129_apply (x : (⟨2, ![130, 64]⟩ : Shape).Idx → α)
    (h : (⟨2, ![130, 64]⟩ : Shape).Slices ![129, 0] ⟨2, ![1, 64]⟩) (j : Fin 64) :
    extractStridedSlice ⟨2, ![1, 64]⟩ ![129, 0] x h (ix2 0 j) = x (ix2 ⟨129, by omega⟩ j) :=
  slice_rows_apply x h 0 j ⟨129, by omega⟩ rfl

/-- A block of `m` consecutive elements of a flat array `[M]` starting at `o`, read at `e`, is the array at `o + e`
    (given as any `i` with that value). -/
theorem slice_flat_apply {M m o : Nat} (x : (⟨1, ![M]⟩ : Shape).Idx → α)
    (h : (⟨1, ![M]⟩ : Shape).Slices ![o] ⟨1, ![m]⟩) (e : Fin m) (i : Fin M) (hi : i.val = o + e.val) :
    extractStridedSlice ⟨1, ![m]⟩ ![o] x h (ix1 e) = x (ix1 i) := by
  refine extractStridedSlice_apply _ x h _ _ (fun a => ?_)
  match a with
  | ⟨0, _⟩ => exact hi

/-- The first `800000` elements of a flat array of `1600000`, read at `e`: the array at `e`. -/
theorem slice_flat_0_apply (x : (⟨1, ![1600000]⟩ : Shape).Idx → α)
    (h : (⟨1, ![1600000]⟩ : Shape).Slices ![0] ⟨1, ![800000]⟩) (e : Fin 800000) :
    extractStridedSlice ⟨1, ![800000]⟩ ![0] x h (ix1 e) = x (ix1 ⟨e.val, by omega⟩) :=
  slice_flat_apply x h e ⟨e.val, by omega⟩ (Nat.zero_add e.val).symm

end Slice

end Cert.LibLayout
-- ==== Proof.RefValue.lean ====
/-
  The reference's three stages read at an entry, at the ideal values: they are the specification's aggregate, dense
  stage and ELU.

  The segment sum at (n, b, f) is the zero plus the sum over the edges whose row word is n of the transposed product
  at (e, b, f), which is the gathered node row x[b, node(e), f] times the edge value; the dense stage at (b, n, o)
  is the sum over f of the aggregate at (n, b, f) (the transpose back) times the weight at (f, o), plus the bias at o.
-/
import proofs.«119495_j39479339384913_2_alg».proof.Proof.RefRun
import proofs.«119495_j39479339384913_2_alg».proof.Proof.Spec
import proofs.«119495_j39479339384913_2_alg».proof.Proof.LibGatherMid
import proofs.«119495_j39479339384913_2_alg».proof.Proof.LibScatterSlabs
import proofs.«119495_j39479339384913_2_alg».proof.Proof.LibDotRows
import proofs.«119495_j39479339384913_2_alg».proof.Proof.LibAxes
import proofs.«119495_j39479339384913_2_alg».proof.Proof.LibLayout

noncomputable section

namespace Cert.ReferenceIdeal.HandValue

open Cert.ReferenceIdeal Cert.ReferenceIdeal.Gen Cert.ReferenceIdeal.HandRun Idealize.ShloMosaic Idealize.ShloMosaic.ValueIdx

/-- The reference's dot_general is a stack of four matrices times the weight matrix. -/
theorem dot_stacked : Cert.LibDotRows.Stacked dot_S4x50000x64_S64x64_S4x50000x64_2_0_01_1_n_n :=
  ⟨rfl, rfl, rfl, rfl, rfl, rfl⟩

/-- The reference's segment sum read at (n, b, f): the operand there plus the sum over the update rows whose index word,
    read signed, is n. -/
theorem scatter_apply (X : FVec Ideal S50000x4x64 .f32) (I : IVec S850000x1 32) (U : FVec Ideal S850000x4x64 .f32)
    (n : Fin 50000) (b : Fin 4) (f : Fin 64) :
    Host.scatterAdd (F := Ideal) scatter_S50000x4x64_S850000x1_S850000x4x64_12_0_0_1 X I U (ix3 n b f)
      = X (ix3 n b f) + ∑ r : Fin 850000, if (I (ix2 r 0)).toInt = (n.val : Int) then U (ix3 r b f) else 0 := by
  show Ideal.hostScatterAdd scatter_S50000x4x64_S850000x1_S850000x4x64_12_0_0_1 X I U (ix3 n b f) = _
  exact Cert.LibScatterSlabs.scatterAdd_slabs_apply scatter_S50000x4x64_S850000x1_S850000x4x64_12_0_0_1_wf X I U n b f

/-- The reference's gather read at (b, e, f): the node features at batch b, the clamped index word of edge e, feature f. -/
theorem gather_apply (x : FVec Ideal S4x50000x64 .f32) (idx : IVec S850000x1 32) (b : Fin 4) (e : Fin 850000) (f : Fin 64) :
    Host.gather gather_S4x50000x64_S850000x1_S4x850000x64_02_1_n_n_1_1_4164 x idx (ix3 b e f)
      = x (ix3 b ⟨min (idx (ix2 e 0)).toInt.toNat (50000 - 1), by omega⟩ f) :=
  Cert.LibGatherMid.gather_mid_apply_ix3 (by omega) gather_S4x50000x64_S850000x1_S4x850000x64_02_1_n_n_1_1_4164_wf x idx b e f

/-- The aggregation stage at (n, b, f) is the specification's aggregate over the wrapped column words. -/
theorem refAgg_apply (x : (⟨S4x50000x64, .f32⟩ : BufTy).Contents (Elt Ideal)) (vals : (⟨S850000, .f32⟩ : BufTy).Contents (Elt Ideal))
    (rows cols : (⟨S850000, .i32⟩ : BufTy).Contents (Elt Ideal)) (n : Fin 50000) (b : Fin 4) (f : Fin 64) :
    refAgg (F := Ideal) x vals rows cols (ix3 n b f) = Cert.Gcn.agg x vals rows (wrapCols (F := Ideal) cols) n b f := by
  unfold refAgg Cert.Gcn.agg
  refine (scatter_apply _ _ _ n b f).trans ?_
  refine congrArg₂ (· + ·) rfl (Finset.sum_congr rfl fun e _ => ?_)
  rw [Cert.LibLayout.broadcastInDim_col_apply]
  refine if_congr Iff.rfl ?_ rfl
  rw [Cert.LibAxes.transpose_102_apply]
  show Host.gather gather_S4x50000x64_S850000x1_S4x850000x64_02_1_n_n_1_1_4164 x _ (ix3 b e f)
      * broadcastInDim S4x850000x64 ![0, 1, 2] bcast_S1x850000x1_S4x850000x64_0_1_2
          (broadcastInDim S1x850000x1 ![1] bcast_S850000_S1x850000x1_1 vals) (ix3 b e f) = _
  rw [Cert.LibAxes.broadcastInDim_1r1_apply, Cert.LibAxes.broadcastInDim_mid_apply]
  refine congrArg₂ (· * ·) ?_ rfl
  refine (gather_apply x _ b e f).trans ?_
  refine congrArg (fun q : Fin 50000 => x (ix3 b q f)) (Fin.ext ?_)
  show min (broadcastInDim S850000x1 ![0] bcast_S850000_S850000x1_0 (wrapCols (F := Ideal) cols) (ix2 e 0)).toInt.toNat (50000 - 1)
    = min (wrapCols (F := Ideal) cols (ix1 e)).toInt.toNat (50000 - 1)
  rw [Cert.LibLayout.broadcastInDim_col_apply]

/-- The dense stage at (b, n, o): the sum over f of the aggregate at (n, b, f) times the weight at (f, o), plus the bias. -/
theorem refLin_apply (agg : (⟨S50000x4x64, .f32⟩ : BufTy).Contents (Elt Ideal)) (w : (⟨S64x64, .f32⟩ : BufTy).Contents (Elt Ideal)) (bias : (⟨S64, .f32⟩ : BufTy).Contents (Elt Ideal))
    (b : Fin 4) (n : Fin 50000) (o : Fin 64) :
    refLin (F := Ideal) agg w bias (ix3 b n o) = (∑ f : Fin 64, agg (ix3 n b f) * w (ix2 f o)) + bias (ix1 o) := by
  unfold refLin
  show FloatOps.dotGeneral (F := Ideal) dot_S4x50000x64_S64x64_S4x50000x64_2_0_01_1_n_n none .single
        (transpose S4x50000x64 [1, 0, 2] agg transposes_S50000x4x64_S4x50000x64_1_0_2) w (ix3 b n o)
      + broadcastInDim S4x50000x64 ![0, 1, 2] bcast_S1x1x64_S4x50000x64_0_1_2
          (broadcastInDim S1x1x64 ![2] bcast_S64_S1x1x64_2 bias) (ix3 b n o) = _
  rw [Cert.LibDotRows.dotGeneral_apply dot_stacked, Cert.LibAxes.broadcastInDim_11c_apply, Cert.LibAxes.broadcastInDim_last_apply]
  refine congrArg₂ (· + ·) (Finset.sum_congr rfl fun f _ => ?_) rfl
  refine congrArg₂ (· * ·) ?_ rfl
  exact Cert.LibAxes.transpose_102_apply agg transposes_S50000x4x64_S4x50000x64_1_0_2 b n f

/-- ELU as the reference spells it, at an entry, is ELU. -/
theorem refElu_apply (v : (⟨S4x50000x64, .f32⟩ : BufTy).Contents (Elt Ideal)) (i : S4x50000x64.Idx) :
    refElu (F := Ideal) v i = Cert.Gcn.elu (v i) :=
  Cert.Gcn.elu_reference (v i)

/-- The reference's result is the specification's, over the wrapped column words. -/
theorem result_eq (x : (⟨S4x50000x64, .f32⟩ : BufTy).Contents (Elt Ideal)) (vals : (⟨S850000, .f32⟩ : BufTy).Contents (Elt Ideal)) (w : (⟨S64x64, .f32⟩ : BufTy).Contents (Elt Ideal))
    (bias : (⟨S64, .f32⟩ : BufTy).Contents (Elt Ideal)) (rows cols : (⟨S850000, .i32⟩ : BufTy).Contents (Elt Ideal)) :
    refElu (F := Ideal) (refLin (refAgg x vals rows cols) w bias)
      = Cert.Gcn.out x vals w bias rows (wrapCols (F := Ideal) cols) := by
  funext i
  obtain ⟨b, n, o, rfl⟩ : ∃ (b : Fin 4) (n : Fin 50000) (o : Fin 64), i = ix3 b n o := ⟨i 0, i 1, i 2, eq_ix3 i⟩
  rw [refElu_apply, refLin_apply, Cert.Gcn.out_ix3]
  unfold Cert.Gcn.lin
  refine congrArg Cert.Gcn.elu (congrArg₂ (· + ·) (Finset.sum_congr rfl fun f _ => ?_) rfl)
  rw [refAgg_apply]

end Cert.ReferenceIdeal.HandValue

end
-- ==== Proof.LibMatmul2.lean ====
/-
  A product of two matrices [M,K]·[K,N] into a zero accumulator, at the ideal values, read at an entry:
  the sum over the K positions of the contracted axis of the left operand's row entry times the right
  operand's column entry.  The dimension record is any one that contracts the left operand's second axis
  with the right operand's first and keeps the other two axes in order, without batch axes.
-/
import Idealize.ShloMosaic.Lib.ValueIdx
import Idealize.ShloMosaic.PureOps.Ideal.Laws

noncomputable section

namespace Cert.LibMatmul2

open Idealize.ShloMosaic Idealize.ShloMosaic.ValueIdx

variable {sl sr so : Shape} (d : DotDims sl sr so)

/-- On the left operand's one kept axis (no batch axes) the left index reads the result index's first coordinate. -/
theorem lhsIdx_val_of_non {a : Fin sl.rank} (hb : d.lhsBatch = []) (hn : d.lhsNonContracting = [a]) (j : so.Idx) (k : d.contr.Idx) :
    (d.lhsIdx j k a).val = (j ⟨0, by rw [d.rank_out, hb, hn]; simp⟩).val := by
  have hmem : a ∈ d.lhsNonContracting := by rw [hn]; exact List.mem_singleton.mpr rfl
  unfold DotDims.lhsIdx
  rw [dif_neg (by rw [hb]; exact List.not_mem_nil), dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- On the right operand's one kept axis (no batch axes, one kept axis on the left) the right index reads the
    result index's second coordinate. -/
theorem rhsIdx_val_of_non {a : Fin sr.rank} {al : Fin sl.rank} (hb : d.rhsBatch = []) (hlb : d.lhsBatch = [])
    (hln : d.lhsNonContracting = [al]) (hn : d.rhsNonContracting = [a]) (j : so.Idx) (k : d.contr.Idx) :
    (d.rhsIdx j k a).val = (j ⟨1, by rw [d.rank_out, hlb, hln, hn]; simp⟩).val := by
  have hmem : a ∈ d.rhsNonContracting := by rw [hn]; exact List.mem_singleton.mpr rfl
  unfold DotDims.rhsIdx
  rw [dif_neg (by rw [hb]; exact List.not_mem_nil), dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

/-- The plain arrangement of a matrix product's dimension numbers. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {M K N : Nat} {φ₁ φ₂ : FTy}

theorem Plain.rank {d : DotDims ⟨2, ![M, K]⟩ ⟨2, ![K, N]⟩ ⟨2, ![M, N]⟩} (h : Plain d) : d.contr.rank = 1 := by
  rw [d.rank_contr, h.lc]; rfl

theorem Plain.size {d : DotDims ⟨2, ![M, K]⟩ ⟨2, ![K, N]⟩ ⟨2, ![M, N]⟩} (h : Plain d) :
    d.contr.size ⟨0, by rw [h.rank]; exact Nat.one_pos⟩ = K := by
  have := d.size_contr 0 (by rw [h.lc]; exact Nat.one_pos)
  rw [this]
  simp [h.lc]

/-- THE ENTRY of a plain matrix product into a zero accumulator at the ideal values. -/
theorem matmul_apply {d : DotDims ⟨2, ![M, K]⟩ ⟨2, ![K, N]⟩ ⟨2, ![M, N]⟩} (h : Plain d) (prec : Option ContractPrecision)
    (A : FVec Ideal ⟨2, ![M, K]⟩ φ₁) (B : FVec Ideal ⟨2, ![K, N]⟩ φ₂) (j : (⟨2, ![M, N]⟩ : Shape).Idx) :
    FloatOps.matmul d prec A B (constant ⟨2, ![M, N]⟩ .f32 0x00000000#32) j
      = ∑ l : Fin K, A (ix2 (j 0) l) * B (ix2 l (j 1)) := by
  rw [Ideal.matmul_constant_zero_apply]
  rw [← Equiv.sum_comp (contrEquiv1 d K h.rank h.size).symm]
  refine Finset.sum_congr rfl fun l _ => ?_
  have hl : d.lhsIdx j ((contrEquiv1 d K h.rank h.size).symm l) = ix2 (j 0) l := by
    funext a; apply Fin.ext
    match a with
    | ⟨0, _⟩ => exact lhsIdx_val_of_non d h.lb h.ln j _
    | ⟨1, _⟩ => exact (d.lhsIdx_val_of_single h.lc j _).trans (contrEquiv1_symm_val d K h.rank h.size l)
  have hr : d.rhsIdx j ((contrEquiv1 d K h.rank h.size).symm l) = ix2 l (j 1) := by
    funext a; apply Fin.ext
    match a with
    | ⟨0, _⟩ => exact (d.rhsIdx_val_of_single h.rc j _).trans (contrEquiv1_symm_val d K h.rank h.size l)
    | ⟨1, _⟩ => exact rhsIdx_val_of_non d h.rb h.lb h.ln h.rn j _
  rw [hl, hr]
  rfl

end Cert.LibMatmul2

end
-- ==== Proof.KernelBody.lean ====
/-
  The kernel body at the ideal values, entry by entry.

  One grid point holds a block x0 of 5000 rows of the aggregate in its [node, batch·64 + feature] layout, the whole
  weight matrix w and the whole bias.  For each of the four batches b the body takes the 64 columns 64·b … 64·b + 63
  of the block, multiplies them by w into a zero accumulator, adds the bias along the rows and applies ELU (v where
  v > 0, exp(min(v, 0)) − 1 elsewhere), and stores the result as slab b of the [4, 5000, 64] output block.  So the
  output block at (b, r, o) is ELU of the sum over l of x0[r, 64·b + l] · w[l, o] plus bias[o].
-/
import proofs.«119495_j39479339384913_2_alg».proof.Proof.Gen.KernelIdeal.Frame
import proofs.«119495_j39479339384913_2_alg».proof.Proof.Spec
import proofs.«119495_j39479339384913_2_alg».proof.Proof.LibMatmul2
import proofs.«119495_j39479339384913_2_alg».proof.Proof.LibLayout
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx

/-- ELU as the body spells it on a [5000, 64] value. -/
def eluVec (v : FVec Ideal S5000x64 .f32) : FVec Ideal S5000x64 .f32 :=
  select (cmpf .ogt v (broadcast S5000x64 (Scalar.ofBits .f32 0x00000000#32))) v
    (subf (exp (minimumf v (broadcast S5000x64 (Scalar.ofBits .f32 0x00000000#32))))
      (broadcast S5000x64 (Scalar.ofBits .f32 0x3F800000#32)))

/-- The value ELU is applied to, for the batch whose columns start at `off`: the column slice times the weight
    matrix into a zero accumulator, plus the bias laid along the rows. -/
def preAct (off : Nat) (hs : S5000x256.Slices ![0, off] S5000x64) (v1 : FVec Ideal S5000x256 .f32)
    (v3 : FVec Ideal S64x64 .bf16) (v4 : Vec Ideal S64 .f32) : FVec Ideal S5000x64 .f32 :=
  addf (matmul dot_S5000x64_S64x64_S5000x64_1_0_0_1_n_n none
      (truncf .bf16 (extractStridedSlice S5000x64 ![0, off] v1 hs) bitsLt_bf16_f32) v3 (constant S5000x64 .f32 0x00000000#32))
    (broadcastTo S5000x64 (shapeCast S1x64 v4 shapeCasts_S64_S1x64) broadcasts_S1x64_S5000x64)

theorem eluVec_apply (v : FVec Ideal S5000x64 .f32) (i : S5000x64.Idx) : eluVec v i = Cert.Gcn.elu (v i) :=
  Cert.Gcn.elu_kernel (v i)

/-- The body's matrix product is a plain one. -/
theorem dot_plain : Cert.LibMatmul2.Plain dot_S5000x64_S64x64_S5000x64_1_0_0_1_n_n := ⟨rfl, rfl, rfl, rfl, rfl, rfl⟩

/-- The pre-activation at (r, o): the sum over l of the block at (r, off + l) times the weight at (l, o), plus the bias
    at o. -/
theorem preAct_apply (off : Nat) (hs : S5000x256.Slices ![0, off] S5000x64) (v1 : FVec Ideal S5000x256 .f32)
    (v3 : FVec Ideal S64x64 .bf16) (v4 : Vec Ideal S64 .f32) (r : Fin 5000) (o : Fin 64)
    (col : Fin 64 → Fin 256) (hcol : ∀ l, (col l).val = off + l.val) :
    preAct off hs v1 v3 v4 (ix2 r o) = (∑ l : Fin 64, v1 (ix2 r (col l)) * v3 (ix2 l o)) + v4 (ix1 o) := by
  unfold preAct
  show FloatOps.matmul dot_S5000x64_S64x64_S5000x64_1_0_0_1_n_n none
        (truncf .bf16 (extractStridedSlice S5000x64 ![0, off] v1 hs) bitsLt_bf16_f32) v3 (constant S5000x64 .f32 0x00000000#32) (ix2 r o)
      + broadcastTo S5000x64 (shapeCast S1x64 v4 shapeCasts_S64_S1x64) broadcasts_S1x64_S5000x64 (ix2 r o) = _
  rw [Cert.LibMatmul2.matmul_apply dot_plain, broadcastTo_1b_ab_apply, Cert.LibLayout.shapeCast_row_apply]
  refine congrArg₂ (· + ·) (Finset.sum_congr rfl fun l _ => ?_) rfl
  refine congrArg₂ (· * ·) ?_ rfl
  exact slice2_axis1_apply off v1 hs r l (col l) (hcol l)

/-- Column 64·b + l of the block. -/
def colOf (b : Fin 4) (l : Fin 64) : Fin 256 := ⟨64 * b.val + l.val, by omega⟩

/-- The output block as one function of the three input blocks. -/
def blockFn (x0 : S5000x256.Idx → EReal) (w : S64x64.Idx → EReal) (bias : S64.Idx → EReal) : S4x5000x64.Idx → EReal :=
  fun y => Cert.Gcn.elu ((∑ l : Fin 64, x0 (ix2 (y 1) (colOf (y 0) l)) * w (ix2 l (y 2))) + bias (ix1 (y 2)))

/-- One slab: the stored value for batch b at (0, r, o) is the block function at (b, r, o). -/
theorem slab_apply (b : Fin 4) (off : Nat) (hoff : off = 64 * b.val) (hs : S5000x256.Slices ![0, off] S5000x64)
    (x0 : Vec Ideal S5000x256 .f32) (w : Vec Ideal S64x64 .f32) (bias : Vec Ideal S64 .f32) (u : Fin 1) (r : Fin 5000) (o : Fin 64) :
    shapeCast S1x5000x64 (eluVec (preAct off hs x0 (k0_pay4 w) bias)) shapeCasts_S5000x64_S1x5000x64 (ix3 u r o)
      = blockFn x0 w bias (ix3 b r o) := by
  rw [shapeCast_ab_1ab_apply, eluVec_apply,
    preAct_apply off hs x0 (k0_pay4 w) bias r o (fun l => colOf b l) (fun l => by rw [hoff]; rfl)]
  rfl

theorem hz2 : (![0, 0] : Fin 2 → Nat) = fun _ => 0 := funext fun a => by fin_cases a <;> rfl
theorem hz1 : (![0] : Fin 1 → Nat) = fun _ => 0 := funext fun a => by fin_cases a <;> rfl

/-- The same-shape cast at the head of the body is the identity. -/
theorem pay3_eq (v0 : Vec Ideal S5000x256 .f32) : k0_pay3 v0 = v0 := shapeCast_self _ _

/-- Where slab b sits in the output block: the stored index (0, r, o) lands at (b, r, o). -/
theorem emb_slab (b : Fin 4) (inb : ∀ a, (![b.val, 0, 0] : Fin 3 → Nat) a + S1x5000x64.size a ≤ S4x5000x64.size a)
    (u : Fin 1) (r : Fin 5000) (o : Fin 64) :
    (Rect.unit (s := S4x5000x64) ![b.val, 0, 0] S1x5000x64.size inb).emb (ix3 u r o) = ix3 b r o := by
  funext a; apply Fin.ext
  have hu : u.val = 0 := by omega
  match a with
  | ⟨0, _⟩ => show b.val + 1 * u.val = b.val; omega
  | ⟨1, _⟩ => show 0 + 1 * r.val = r.val; omega
  | ⟨2, _⟩ => show 0 + 1 * o.val = o.val; omega

/-- The output block after the body: the four slabs, read back as one function of the input blocks. -/
theorem out_eq (x0 : Vec Ideal S5000x256 .f32) (x1 : Vec Ideal S64x64 .f32) (x2 : Vec Ideal S64 .f32) :
    out0_3 (F := Ideal) x0 x1 x2 = blockFn x0 x1 x2 := by
  funext y
  unfold out0_3
  simp only [View.ld_unit_zero (S := S5000x256) hz2, View.ld_unit_zero (S := S64x64) hz2, View.ld_unit_zero (S := S64) hz1, pay3_eq]
  refine View.canon_apply_of_pieces (Val := Elt Ideal) (e := .f32) (blockFn x0 x1 x2 : S4x5000x64.Idx → Elt Ideal .f32) _ ?_ y (cover0_3 _ _ _ _ y)
  intro p hp x
  simp only [List.mem_cons, List.not_mem_nil, or_false] at hp
  rcases hp with rfl | rfl | rfl | rfl
  · obtain ⟨u, r, o, rfl⟩ : ∃ (u : Fin 1) (r : Fin 5000) (o : Fin 64), x = ix3 u r o := ⟨x 0, x 1, x 2, eq_ix3 x⟩
    show k0_pay2 x0 (k0_pay4 x1) x2 (ix3 u r o) = blockFn x0 x1 x2 (r0_6.emb (ix3 u r o))
    rw [show r0_6.emb (ix3 u r o) = ix3 (3 : Fin 4) r o from emb_slab 3 _ u r o]
    exact slab_apply 3 192 rfl slices_S5000x256_o0_192_S5000x64 x0 x1 x2 u r o
  · obtain ⟨u, r, o, rfl⟩ : ∃ (u : Fin 1) (r : Fin 5000) (o : Fin 64), x = ix3 u r o := ⟨x 0, x 1, x 2, eq_ix3 x⟩
    show k0_pay1 x0 (k0_pay4 x1) x2 (ix3 u r o) = blockFn x0 x1 x2 (r0_5.emb (ix3 u r o))
    rw [show r0_5.emb (ix3 u r o) = ix3 (2 : Fin 4) r o from emb_slab 2 _ u r o]
    exact slab_apply 2 128 rfl slices_S5000x256_o0_128_S5000x64 x0 x1 x2 u r o
  · obtain ⟨u, r, o, rfl⟩ : ∃ (u : Fin 1) (r : Fin 5000) (o : Fin 64), x = ix3 u r o := ⟨x 0, x 1, x 2, eq_ix3 x⟩
    show k0_pay6 x0 x1 x2 (ix3 u r o) = blockFn x0 x1 x2 (r0_4.emb (ix3 u r o))
    rw [show r0_4.emb (ix3 u r o) = ix3 (1 : Fin 4) r o from emb_slab 1 _ u r o]
    refine Eq.trans ?_ (slab_apply 1 64 rfl slices_S5000x256_o0_64_S5000x64 x0 x1 x2 u r o)
    unfold k0_pay6
    rw [pay3_eq]
    rfl
  · obtain ⟨u, r, o, rfl⟩ : ∃ (u : Fin 1) (r : Fin 5000) (o : Fin 64), x = ix3 u r o := ⟨x 0, x 1, x 2, eq_ix3 x⟩
    show k0_pay5 x0 x1 x2 (ix3 u r o) = blockFn x0 x1 x2 (r0_3.emb (ix3 u r o))
    rw [show r0_3.emb (ix3 u r o) = ix3 (0 : Fin 4) r o from emb_slab 0 _ u r o]
    refine Eq.trans ?_ (slab_apply 0 0 rfl slices_S5000x256_o0_0_S5000x64 x0 x1 x2 u r o)
    unfold k0_pay5
    rw [pay3_eq]
    rfl

end Cert.KernelIdeal.Body

end
-- ==== Proof.LibScatter.lean ====
/-
  The host's accumulating scatter (what a segment sum lowers to) read at an index, with extended-real values.

  The scatter adds, to each operand element, every update element whose result index is that element. With scatter
  indices a column \`idx : [R, 1]\` of signed integers, inserted_window_dims \`[0]\`, scatter_dims_to_operand_dims \`[0]\` and
  index_vector_dim 1, update row \`r\` lands on operand row \`idx[r, 0]\` — read as a signed integer and NOT clamped:
  a row number outside \`[0, N)\` drops the update. So the result at row \`n\` is the operand there plus the sum over the
  update rows \`r\` with \`idx[r, 0] = n\`. Two shapes: a flat operand \`[N]\` with updates \`[R]\` (no window axis), and a
  matrix operand \`[N, C]\` with updates \`[R, C]\` (update_window_dims \`[1]\`: whole rows are added).
-/
import Idealize.ShloMosaic.Lib.ValueIdx

open scoped BigOperators

namespace Cert.LibScatter

open Idealize.ShloMosaic Idealize.ShloMosaic.ValueIdx

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section Flat

/-- The dimension numbers of a scatter of single elements into a flat array: operand \`[N]\`, scatter indices \`[R, 1]\`,
    updates \`[R]\`; no window axis, the operand's only axis is inserted and is the one the scatter index names. Their
    conditions \`wf\` are decided on a program's literal shapes. -/
abbrev flatDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- The window of update element \`j\` starts, on the operand's only axis, at \`idx[j, 0]\` read as a signed integer. -/
theorem flat_start {N R w : Nat} (wf : ScatterDims.WF ⟨1, ![N]⟩ ⟨2, ![R, 1]⟩ ⟨1, ![R]⟩ [] [0] [0] 1)
    (idx : IVec ⟨2, ![R, 1]⟩ w) (j : (⟨1, ![R]⟩ : Shape).Idx) :
    (flatDims N R wf).start j idx 0 = (idx (ix2 (j 0) 0)).toInt := by
  unfold ScatterDims.start
  rw [dif_pos (show (0 : Fin 1) ∈ (flatDims N R wf).scatterDimsToOperandDims from List.mem_singleton.mpr rfl)]
  have hsi : (flatDims N R wf).siIdx j ⟨List.idxOf (0 : Fin 1) (flatDims N R wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The operand's only axis is inserted: the window coordinate there is \`0\`. -/
theorem flat_window {N R : Nat} (wf : ScatterDims.WF ⟨1, ![N]⟩ ⟨2, ![R, 1]⟩ ⟨1, ![R]⟩ [] [0] [0] 1)
    (j : (⟨1, ![R]⟩ : Shape).Idx) : (flatDims N R wf).window j 0 = 0 := by
  unfold ScatterDims.window
  rw [dif_neg]
  simp [ScatterDims.sKept, Shape.kept]

/-- Update element \`j\` lands on operand element \`n\` exactly when \`idx[j, 0]\`, as a signed integer, is \`n\`. -/
theorem flat_resultIdx_iff {N R w : Nat} (wf : ScatterDims.WF ⟨1, ![N]⟩ ⟨2, ![R, 1]⟩ ⟨1, ![R]⟩ [] [0] [0] 1)
    (idx : IVec ⟨2, ![R, 1]⟩ w) (j : (⟨1, ![R]⟩ : Shape).Idx) (n : Fin N) :
    (flatDims N R wf).resultIdx? j idx = some (ix1 n) ↔ (idx (ix2 (j 0) 0)).toInt = (n.val : Int) := by
  have hsz : ((⟨1, ![N]⟩ : Shape).size 0 : Int) = (N : Int) := rfl
  have hn : (n.val : Int) < (N : Int) := by exact_mod_cast n.isLt
  unfold ScatterDims.resultIdx?
  split_ifs with h
  · rw [Option.some_inj]
    have h0 := h 0
    rw [flat_start, flat_window] at h0
    constructor
    · intro hf
      have hv := congrArg Fin.val (congrFun hf 0)
      simp only [flat_start, flat_window] at hv
      change ((idx (ix2 (j 0) 0)).toInt + ((0 : Nat) : Int)).toNat = n.val at hv
      omega
    · intro he
      funext a
      obtain rfl : a = 0 := Subsingleton.elim _ _
      refine Fin.ext ?_
      show ((flatDims N R wf).start j idx 0 + ((flatDims N R wf).window j 0 : Int)).toNat = n.val
      rw [flat_start, flat_window, he]
      omega
  · constructor
    · intro hf; exact absurd hf (by simp)
    · intro he
      exfalso; apply h
      intro a
      obtain rfl : a = 0 := Subsingleton.elim _ _
      rw [flat_start, flat_window, he, hsz]
      omega

/-- THE ELEMENT SCATTER-ADD READ AT \`n\`: the operand at \`n\` plus the sum of the update elements \`r\` whose scatter index
    \`idx[r, 0]\`, read as a signed integer, is \`n\`. (An index outside \`[0, N)\` equals no \`n\`: that update is dropped.) -/
theorem scatterAdd_flat_apply {N R w : Nat} (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w) (upd : (⟨1, ![R]⟩ : Shape).Idx → EReal)
    (n : Fin N) :
    Ideal.hostScatterAdd (flatDims N R wf) x idx upd (ix1 n)
      = x (ix1 n) + ∑ r : Fin R, if (idx (ix2 r 0)).toInt = (n.val : Int) then upd (ix1 r) else 0 := by
  unfold Ideal.hostScatterAdd
  congr 1
  rw [Finset.sum_filter, sum_idx1]
  refine Finset.sum_congr rfl fun r _ => ?_
  by_cases hc : (idx (ix2 r 0)).toInt = (n.val : Int)
  · rw [if_pos hc, if_pos ((flat_resultIdx_iff wf idx (ix1 r) n).mpr hc)]
  · rw [if_neg hc, if_neg (fun h => hc ((flat_resultIdx_iff wf idx (ix1 r) n).mp h))]

end Flat

section Rows

/-- The dimension numbers of a scatter of whole rows into a matrix: operand \`[N, C]\`, scatter indices \`[R, 1]\`, updates
    \`[R, C]\`; the updates' axis 1 is the window axis (it runs along a row), the operand's axis 0 is inserted and is the
    one the scatter index names. Their conditions \`wf\` are decided on a program's literal shapes. -/
abbrev rowsDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- On the operand's row axis the window of update element \`j\` starts at \`idx[j₀, 0]\` read as a signed integer. -/
theorem rows_start0 {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowsDims N R C wf).start j idx 0 = (idx (ix2 (j 0) 0)).toInt := by
  unfold ScatterDims.start
  rw [dif_pos (show (0 : Fin 2) ∈ (rowsDims N R C wf).scatterDimsToOperandDims from List.mem_singleton.mpr rfl)]
  have hsi : (rowsDims N R C wf).siIdx j ⟨List.idxOf (0 : Fin 2) (rowsDims N R C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The scatter index does not name the operand's column axis: the window starts at \`0\` there. -/
theorem rows_start1 {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowsDims N R C wf).start j idx 1 = 0 := by
  have hne : ¬ ((1 : Fin 2) = 0) := by decide
  unfold ScatterDims.start
  rw [dif_neg (fun h => hne (List.mem_singleton.mp h))]

/-- The operand's row axis is inserted: the window coordinate there is \`0\`. -/
theorem rows_window0 {N R C : Nat} (wf : ScatterDims.WF ⟨2, ![N, C]⟩ ⟨2, ![R, 1]⟩ ⟨2, ![R, C]⟩ [1] [0] [0] 1)
    (j : (⟨2, ![R, C]⟩ : Shape).Idx) : (rowsDims N R C wf).window j 0 = 0 := by
  unfold ScatterDims.window
  rw [dif_neg]
  simp [ScatterDims.sKept, Shape.kept]

/-- On the operand's column axis the window coordinate is the update element's own column. -/
theorem rows_window1 {N R C : Nat} (wf : ScatterDims.WF ⟨2, ![N, C]⟩ ⟨2, ![R, 1]⟩ ⟨2, ![R, C]⟩ [1] [0] [0] 1)
    (j : (⟨2, ![R, C]⟩ : Shape).Idx) : (rowsDims N R C wf).window j 1 = (j 1).val := by
  unfold ScatterDims.window
  rw [dif_pos (by simp [ScatterDims.sKept, Shape.kept])]
  rfl

/-- Update element \`j = (r, c')\` lands on operand element \`(n, c)\` exactly when \`idx[r, 0]\`, as a signed integer, is
    \`n\`, and \`c' = c\`. -/
theorem rows_resultIdx_iff {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) (n : Fin N) (c : Fin C) :
    (rowsDims N R C wf).resultIdx? j idx = some (ix2 n c)
      ↔ (idx (ix2 (j 0) 0)).toInt = (n.val : Int) ∧ (j 1).val = c.val := by
  have hsz0 : ((⟨2, ![N, C]⟩ : Shape).size 0 : Int) = (N : Int) := rfl
  have hsz1 : ((⟨2, ![N, C]⟩ : Shape).size 1 : Int) = (C : Int) := rfl
  have hn : (n.val : Int) < (N : Int) := by exact_mod_cast n.isLt
  have hc : (c.val : Int) < (C : Int) := by exact_mod_cast c.isLt
  unfold ScatterDims.resultIdx?
  split_ifs with h
  · rw [Option.some_inj]
    have h0 := h 0
    rw [rows_start0, rows_window0] at h0
    constructor
    · intro hf
      have hv0 := congrArg Fin.val (congrFun hf 0)
      have hv1 := congrArg Fin.val (congrFun hf 1)
      simp only [rows_start0, rows_window0] at hv0
      simp only [rows_start1, rows_window1] at hv1
      change ((idx (ix2 (j 0) 0)).toInt + ((0 : Nat) : Int)).toNat = n.val at hv0
      change ((0 : Int) + (((j 1).val : Nat) : Int)).toNat = c.val at hv1
      constructor <;> omega
    · rintro ⟨he, hj⟩
      funext a
      refine Fin.ext ?_
      match a with
      | ⟨0, _⟩ =>
        show ((rowsDims N R C wf).start j idx 0 + ((rowsDims N R C wf).window j 0 : Int)).toNat = n.val
        rw [rows_start0, rows_window0, he]
        omega
      | ⟨1, _⟩ =>
        show ((rowsDims N R C wf).start j idx 1 + ((rowsDims N R C wf).window j 1 : Int)).toNat = c.val
        rw [rows_start1, rows_window1]
        omega
  · constructor
    · intro hf; exact absurd hf (by simp)
    · rintro ⟨he, hj⟩
      exfalso; apply h
      intro a
      match a with
      | ⟨0, _⟩ =>
        show 0 ≤ (rowsDims N R C wf).start j idx 0 + ((rowsDims N R C wf).window j 0 : Int)
          ∧ (rowsDims N R C wf).start j idx 0 + ((rowsDims N R C wf).window j 0 : Int)
            < ((⟨2, ![N, C]⟩ : Shape).size 0 : Int)
        rw [rows_start0, rows_window0, he, hsz0]
        omega
      | ⟨1, _⟩ =>
        show 0 ≤ (rowsDims N R C wf).start j idx 1 + ((rowsDims N R C wf).window j 1 : Int)
          ∧ (rowsDims N R C wf).start j idx 1 + ((rowsDims N R C wf).window j 1 : Int)
            < ((⟨2, ![N, C]⟩ : Shape).size 1 : Int)
        rw [rows_start1, rows_window1, hsz1, hj]
        omega

/-- THE ROW SCATTER-ADD READ AT \`(n, c)\`: the operand at \`(n, c)\` plus the sum, over the update rows \`r\` whose scatter
    index \`idx[r, 0]\`, read as a signed integer, is \`n\`, of the update at \`(r, c)\`. (An index outside \`[0, N)\` equals no
    \`n\`: that update row is dropped.) -/
theorem scatterAdd_rows_apply {N R C w : Nat} (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (n : Fin N) (c : Fin C) :
    Ideal.hostScatterAdd (rowsDims N R C wf) x idx upd (ix2 n c)
      = x (ix2 n c) + ∑ r : Fin R, if (idx (ix2 r 0)).toInt = (n.val : Int) then upd (ix2 r c) else 0 := by
  unfold Ideal.hostScatterAdd
  congr 1
  rw [Finset.sum_filter, sum_idx2]
  refine Finset.sum_congr rfl fun r _ => ?_
  by_cases hc : (idx (ix2 r 0)).toInt = (n.val : Int)
  · rw [if_pos hc, Finset.sum_eq_single c]
    · rw [if_pos ((rows_resultIdx_iff wf idx (ix2 r c) n c).mpr ⟨hc, rfl⟩)]
    · intro c' _ hne
      rw [if_neg (fun h => hne (Fin.ext ((rows_resultIdx_iff wf idx (ix2 r c') n c).mp h).2))]
    · intro hnot; exact absurd (Finset.mem_univ c) hnot
  · rw [if_neg hc]
    refine Finset.sum_eq_zero fun c' _ => ?_
    rw [if_neg (fun h => hc ((rows_resultIdx_iff wf idx (ix2 r c') n c).mp h).1)]

end Rows

end Cert.LibScatter
-- ==== Proof.KernelHost.lean ====
/-
  The aggregate as the kernel's program computes it before its kernel call, read at an entry.

  The node features are laid node-major with the batch folded into the columns: x⊤[n, 64·b + f] = x[b, n, f].  The
  rows of x⊤ at the edges' source nodes are gathered, each multiplied by its edge value, and summed per destination
  row (a scatter-add into zeros).  So the aggregate at (n, 64·b + f) is the zero plus the sum, over the edges whose row
  word is n, of x[b, node(e), f] times the edge's value: the specification's aggregate at (n, b, f).
-/
import proofs.«119495_j39479339384913_2_alg».proof.Proof.Gen.KernelIdeal.Frame
import proofs.«119495_j39479339384913_2_alg».proof.Proof.Spec
import proofs.«119495_j39479339384913_2_alg».proof.Proof.LibScatter
import proofs.«119495_j39479339384913_2_alg».proof.Proof.LibRows
import proofs.«119495_j39479339384913_2_alg».proof.Proof.LibLayout
import proofs.«119495_j39479339384913_2_alg».proof.Proof.LibAxes
import Idealize.ShloMosaic.Lib.StableHlo.Run

noncomputable section

namespace Cert.KernelIdeal.HostSide

open Cert.KernelIdeal Cert.KernelIdeal.Gen Idealize.ShloMosaic Idealize.ShloMosaic.TcCoe Idealize.ShloMosaic.ValueIdx Idealize.SL.Sem
open Idealize.ShloMosaic.StableHlo

variable {F : FTy → Type} [FloatOps F]

/-- The column words with a negative word moved up by the node count. -/
def wrapCols (cols : (⟨S850000, .i32⟩ : BufTy).Contents (Elt F)) : (⟨S850000, .i32⟩ : BufTy).Contents (Elt F) :=
  select (cmpi .slt cols (broadcastInDim S850000 ![] bcast_S_S850000 (constantI S_ 32 0#32)))
    (addi cols (broadcastInDim S850000 ![] bcast_S_S850000 (constantI S_ 32 50000#32))) cols

/-- The aggregate in its [node, batch·64 + feature] layout, as the host operations before the kernel call compute it. -/
def aggT (x : (⟨S4x50000x64, .f32⟩ : BufTy).Contents (Elt F)) (vals : (⟨S850000, .f32⟩ : BufTy).Contents (Elt F))
    (rows cols : (⟨S850000, .i32⟩ : BufTy).Contents (Elt F)) : (⟨S50000x256, .f32⟩ : BufTy).Contents (Elt F) :=
  Host.scatterAdd scatter_S50000x256_S850000x1_S850000x256_1_0_0_1
    (broadcastInDim S50000x256 ![] bcast_S_S50000x256 (constant S_ .f32 0x00000000#32))
    (broadcastInDim S850000x1 ![0] bcast_S850000_S850000x1_0 rows)
    (mulf (Host.gather gather_S50000x256_S850000x1_S850000x256_1_0_n_n_0_1_1256
        (shapeCast S50000x256 (transpose S50000x4x64 [1, 0, 2] x transposes_S4x50000x64_S50000x4x64_1_0_2)
          shapeCasts_S50000x4x64_S50000x256)
        (broadcastInDim S850000x1 ![0] bcast_S850000_S850000x1_0 (wrapCols (F := F) cols)))
      (broadcastInDim S850000x256 ![0, 1] bcast_S850000x1_S850000x256_0_1
        (broadcastInDim S850000x1 ![0] bcast_S850000_S850000x1_0 vals)))

attribute [local irreducible] Host.gather Host.scatterAdd transpose in
/-- What the kernel call finds in its first operand's array: the aggregate of the arguments as launched. -/
theorem V_main_v14 (m : (ℓ : Loc nD τ sig) → Buf (Elt Ideal) ℓ) (c : Dev nD) :
    (V (F := Ideal) m c main_v14 : S50000x256.Idx → EReal)
      = aggT (F := Ideal) (m ((c : Thread nD τ).loc main_arg0)) (m ((c : Thread nD τ).loc main_arg1)) (m ((c : Thread nD τ).loc main_arg4)) (m ((c : Thread nD τ).loc main_arg5)) := by
  dsimp only [Gen.V, Gen.hostOps0]
  after_results
  rfl

/-- The kernel program's segment sum read at (n, j): the operand there plus the sum over the update rows whose index
    word, read signed, is n. -/
theorem scatter_apply (X : FVec Ideal S50000x256 .f32) (I : IVec S850000x1 32) (U : FVec Ideal S850000x256 .f32)
    (n : Fin 50000) (j : Fin 256) :
    Host.scatterAdd (F := Ideal) scatter_S50000x256_S850000x1_S850000x256_1_0_0_1 X I U (ix2 n j)
      = X (ix2 n j) + ∑ r : Fin 850000, if (I (ix2 r 0)).toInt = (n.val : Int) then U (ix2 r j) else 0 := by
  show Ideal.hostScatterAdd scatter_S50000x256_S850000x1_S850000x256_1_0_0_1 X I U (ix2 n j) = _
  exact Cert.LibScatter.scatterAdd_rows_apply scatter_S50000x256_S850000x1_S850000x256_1_0_0_1_wf X I U n j

/-- The kernel program's gather read at (e, j): the operand at the clamped index word of edge e, column j. -/
theorem gather_apply (x : FVec Ideal S50000x256 .f32) (idx : IVec S850000x1 32) (e : Fin 850000) (j : Fin 256) :
    Host.gather gather_S50000x256_S850000x1_S850000x256_1_0_n_n_0_1_1256 x idx (ix2 e j)
      = x (ix2 ⟨min (idx (ix2 e 0)).toInt.toNat (50000 - 1), by omega⟩ j) :=
  Cert.LibRows.gather_rows_apply_ix2 (by omega) gather_S50000x256_S850000x1_S850000x256_1_0_n_n_0_1_1256_wf x idx e j

/-- The aggregate at (n, 64·b + f) is the specification's aggregate at (n, b, f), over the wrapped column words. -/
theorem aggT_apply (x : (⟨S4x50000x64, .f32⟩ : BufTy).Contents (Elt Ideal)) (vals : (⟨S850000, .f32⟩ : BufTy).Contents (Elt Ideal))
    (rows cols : (⟨S850000, .i32⟩ : BufTy).Contents (Elt Ideal)) (n : Fin 50000) (b : Fin 4) (f : Fin 64) (j : Fin 256)
    (hj : j.val = 64 * b.val + f.val) :
    aggT (F := Ideal) x vals rows cols (ix2 n j) = Cert.Gcn.agg x vals rows (wrapCols (F := Ideal) cols) n b f := by
  unfold aggT Cert.Gcn.agg
  refine (scatter_apply _ _ _ n j).trans ?_
  refine congrArg₂ (· + ·) rfl (Finset.sum_congr rfl fun e _ => ?_)
  rw [Cert.LibLayout.broadcastInDim_col_apply]
  refine if_congr Iff.rfl ?_ rfl
  show Host.gather gather_S50000x256_S850000x1_S850000x256_1_0_n_n_0_1_1256
        (shapeCast S50000x256 (transpose S50000x4x64 [1, 0, 2] x transposes_S4x50000x64_S50000x4x64_1_0_2)
          shapeCasts_S50000x4x64_S50000x256)
        (broadcastInDim S850000x1 ![0] bcast_S850000_S850000x1_0 (wrapCols (F := Ideal) cols)) (ix2 e j)
      * broadcastInDim S850000x256 ![0, 1] bcast_S850000x1_S850000x256_0_1
          (broadcastInDim S850000x1 ![0] bcast_S850000_S850000x1_0 vals) (ix2 e j) = _
  rw [Cert.LibAxes.broadcastInDim_col_spread_apply, Cert.LibLayout.broadcastInDim_col_apply]
  refine congrArg₂ (· * ·) ?_ rfl
  refine (gather_apply _ _ e j).trans ?_
  refine (Cert.LibAxes.shapeCast_flatten_apply _ shapeCasts_S50000x4x64_S50000x256 rfl _ b f j hj).trans ?_
  refine (Cert.LibAxes.transpose_102_apply x transposes_S4x50000x64_S50000x4x64_1_0_2 _ b f).trans ?_
  refine congrArg (fun q : Fin 50000 => x (ix3 b q f)) (Fin.ext ?_)
  show min (broadcastInDim S850000x1 ![0] bcast_S850000_S850000x1_0 (wrapCols (F := Ideal) cols) (ix2 e 0)).toInt.toNat (50000 - 1)
    = min (wrapCols (F := Ideal) cols (ix1 e)).toInt.toNat (50000 - 1)
  rw [Cert.LibLayout.broadcastInDim_col_apply]

end Cert.KernelIdeal.HostSide

end
-- ==== Proof.KernelValue.lean ====
/-
  The kernel's result array as one function of the arguments.

  Grid point t stages rows 5000·t … 5000·t + 4999 of the aggregate (all 256 columns), the whole weight matrix and the
  whole bias, and writes back the block (all four batches, rows 5000·t … 5000·t + 4999, all 64 output features) of the
  result.  The body's output block at (b, r, o) is ELU of the sum over l of the aggregate block at (r, 64·b + l) times
  the weight at (l, o) plus the bias at o, and the aggregate at (5000·t + r, 64·b + l) is the specification's aggregate
  at node 5000·t + r, batch b, feature l: so point t writes block t of the specification's result, the ten blocks
  cover the array (row n lies in block n / 5000), and the array ends holding the specification's result.
-/
import proofs.«119495_j39479339384913_2_alg».proof.Proof.Gen.KernelIdeal.Value
import proofs.«119495_j39479339384913_2_alg».proof.Proof.KernelBody
import proofs.«119495_j39479339384913_2_alg».proof.Proof.KernelHost

noncomputable section

open Idealize.ShloMosaic Idealize.ShloMosaic.TcCoe Idealize.SL.Sem
open Idealize.ShloMosaic.Pipeline (Dat)

namespace Cert.KernelIdeal.HandValue

open Cert.KernelIdeal Cert.KernelIdeal.Gen Cert.KernelIdeal.Value Idealize.ShloMosaic.ValueIdx

variable (m : (ℓ : Loc nD τ sig) → Buf (Elt Ideal) ℓ) (ρ : Dev nD → PrngReg)

/-- The result array: the specification's result of the arguments as launched. -/
def result (c : Dev nD) : Buf (Elt Ideal) ((c : Thread nD τ).loc main_v15) :=
  Cert.Gcn.out (m ((c : Thread nD τ).loc main_arg0)) (m ((c : Thread nD τ).loc main_arg1)) (m ((c : Thread nD τ).loc main_arg2)) (m ((c : Thread nD τ).loc main_arg3))
    (m ((c : Thread nD τ).loc main_arg4)) (Cert.KernelIdeal.HostSide.wrapCols (F := Ideal) (m ((c : Thread nD τ).loc main_arg5)))

/-- The printed index maps, decided over the ten grid points: the aggregate's window and the result's window move
    along their row axis with the point, the weight's and the bias's windows stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 3) = 0 ∧ win0_3.index t (1 : Fin 3) = t.val ∧ win0_3.index t (2 : Fin 3) = 0 :=
  (by decide +kernel : ∀ t : Fin grid0.N, _)

/-- A block of the aggregate's window read at (r, j): rows 5000·t … 5000·t + 4999 of the array, all its columns. -/
theorem blk0_read (A : S50000x256.Idx → EReal) (t : Fin cfg0.N) (r : Fin 5000) (j : Fin 256) (n : Fin 50000)
    (hn : n.val = 5000 * t.val + r.val) :
    ((cfg0.win 0).blk t).view.read (Elt Ideal) A (ix2 r j) = A (ix2 n j) := by
  obtain ⟨e0, e1, -⟩ := idx_facts t
  rw [View.read_apply]
  refine congrArg A ?_
  funext a
  apply Fin.ext
  match a with
  | ⟨0, _⟩ => show win0_0.index t (0 : Fin 2) * 5000 + 1 * r.val = n.val; rw [e0, hn]; omega
  | ⟨1, _⟩ => show win0_0.index t (1 : Fin 2) * 256 + 1 * j.val = j.val; rw [e1]; omega

/-- The aggregate's block at point t is rows 5000·t … of the array the kernel call finds. -/
theorem iblk0_apply (c : Dev nD) (t : Fin cfg0.N) (r : Fin 5000) (j : Fin 256) (n : Fin 50000)
    (hn : n.val = 5000 * t.val + r.val) :
    iblk m c 0 t (ix2 r j) = V m c (Pipeline.arrRef spec0 0) (ix2 n j) := by
  unfold iblk
  exact blk0_read (V m c (Pipeline.arrRef spec0 0)) t r j n hn

/-- The weight's block at every point is the weight argument. -/
theorem iblk1_eq (c : Dev nD) (t : Fin cfg0.N) :
    (iblk m c 1 t : Vec Ideal S64x64 .f32) = (m ((c : Thread nD τ).loc main_arg2) : S64x64.Idx → EReal) := by
  obtain ⟨-, -, e2, e3, -⟩ := idx_facts t
  funext y
  unfold iblk
  rw [View.read_apply]
  show V m c main_arg2 _ = _
  rw [V_main_arg2]
  refine congrArg (m ((c : Thread nD τ).loc main_arg2)) ?_
  funext a
  apply Fin.ext
  match a with
  | ⟨0, _⟩ => show win0_1.index t (0 : Fin 2) * 64 + 1 * (y 0).val = (y 0).val; rw [e2]; omega
  | ⟨1, _⟩ => show win0_1.index t (1 : Fin 2) * 64 + 1 * (y 1).val = (y 1).val; rw [e3]; omega

/-- The bias's block at every point is the bias argument. -/
theorem iblk2_eq (c : Dev nD) (t : Fin cfg0.N) :
    (iblk m c 2 t : Vec Ideal S64 .f32) = (m ((c : Thread nD τ).loc main_arg3) : S64.Idx → EReal) := by
  obtain ⟨-, -, -, -, e4, -⟩ := idx_facts t
  funext y
  unfold iblk
  rw [View.read_apply]
  show V m c main_arg3 _ = _
  rw [V_main_arg3]
  refine congrArg (m ((c : Thread nD τ).loc main_arg3)) ?_
  funext a
  apply Fin.ext
  match a with
  | ⟨0, _⟩ => show win0_2.index t (0 : Fin 1) * 64 + 1 * (y 0).val = (y 0).val; rw [e4]; omega

/-- One entry of one point's output block against the specification, over variables: if the aggregate block's entries
    are the specification's aggregates of the rows 5000·tv + r, the block function at y is the specification's result
    at the index with the same batch and feature and row 5000·tv + (y's row). -/
theorem point_eq (x0 : S5000x256.Idx → EReal) (w : S64x64.Idx → EReal) (bias : S64.Idx → EReal)
    (X : Cert.Gcn.SX.Idx → EReal) (vals : Cert.Gcn.SE.Idx → EReal) (rows wc : IVec Cert.Gcn.SE 32)
    (tv : Nat) (y : S4x5000x64.Idx) (i : Cert.Gcn.SX.Idx)
    (hx0 : ∀ (r : Fin 5000) (b : Fin 4) (f : Fin 64) (n : Fin 50000), n.val = 5000 * tv + r.val →
      x0 (ix2 r (Cert.KernelIdeal.Body.colOf b f)) = Cert.Gcn.agg X vals rows wc n b f)
    (hi0 : (i 0).val = (y 0).val) (hi1 : (i 1).val = 5000 * tv + (y 1).val) (hi2 : (i 2).val = (y 2).val) :
    Cert.KernelIdeal.Body.blockFn x0 w bias y = Cert.Gcn.out X vals w bias rows wc i := by
  obtain ⟨b, r, o, rfl⟩ : ∃ (b : Fin 4) (r : Fin 5000) (o : Fin 64), y = ix3 b r o := ⟨y 0, y 1, y 2, eq_ix3 y⟩
  obtain ⟨b', n, o', rfl⟩ : ∃ (b' : Fin 4) (n : Fin 50000) (o' : Fin 64), i = ix3 b' n o' := ⟨i 0, i 1, i 2, eq_ix3 i⟩
  obtain rfl : b' = b := Fin.ext hi0
  obtain rfl : o' = o := Fin.ext hi2
  rw [Cert.Gcn.out_ix3]
  unfold Cert.KernelIdeal.Body.blockFn Cert.Gcn.lin
  refine congrArg Cert.Gcn.elu (congrArg₂ (· + ·) (Finset.sum_congr rfl fun l _ => ?_) rfl)
  refine congrArg₂ (· * ·) ?_ rfl
  exact hx0 r b' l n hi1

/-- Where point t's output block sits in the result array: the block index (b, r, o) is the array index
    (b, 5000·t + r, o). -/
theorem blk3_emb (t : Fin cfg0.N) (y : ((cfg0.win 3).xblock (grid0.coords t)).Idx) :
    ((((cfg0.win 3).blk t).view.emb y) 0).val = (y 0).val
      ∧ ((((cfg0.win 3).blk t).view.emb y) 1).val = 5000 * t.val + (y 1).val
      ∧ ((((cfg0.win 3).blk t).view.emb y) 2).val = (y 2).val := by
  obtain ⟨-, -, -, -, -, e5, e6, e7⟩ := idx_facts t
  refine ⟨?_, ?_, ?_⟩
  · show win0_3.index t (0 : Fin 3) * 4 + 1 * (y 0).val = (y 0).val; rw [e5]; omega
  · show win0_3.index t (1 : Fin 3) * 5000 + 1 * (y 1).val = 5000 * t.val + (y 1).val; rw [e6]; omega
  · show win0_3.index t (2 : Fin 3) * 64 + 1 * (y 2).val = (y 2).val; rw [e7]; omega

/-- A block of the result's window read through point t's rectangle is the array at the embedded index. -/
theorem blk3_read (G : S4x50000x64.Idx → EReal) (t : Fin cfg0.N) (y : ((cfg0.win 3).xblock (grid0.coords t)).Idx) :
    ((cfg0.win 3).blk t).view.read (Elt Ideal) G y = G (((cfg0.win 3).blk t).view.emb y) := by
  rw [View.read_apply]
  rfl

attribute [local irreducible] Cert.Gcn.out Cert.KernelIdeal.Body.blockFn in
/-- What point t writes back is block t of the specification's result. -/
theorem flushed_eq (c : Dev nD) (t : Fin cfg0.N) :
    (dats m 0 c).flushed 3 t = ((cfg0.win 3).blk t).view.read (Elt Ideal) (result m c) := by
  rw [Value.flushed3, Cert.KernelIdeal.Body.out_eq (iblk m c 0 t) (iblk m c 1 t) (iblk m c 2 t)]
  funext y
  rw [blk3_read (result m c) t y]
  obtain ⟨h0, h1, h2⟩ := blk3_emb t y
  unfold result
  rw [iblk1_eq m c t, iblk2_eq m c t]
  refine point_eq (iblk m c 0 t) (m ((c : Thread nD τ).loc main_arg2)) (m ((c : Thread nD τ).loc main_arg3)) (m ((c : Thread nD τ).loc main_arg0)) (m ((c : Thread nD τ).loc main_arg1)) (m ((c : Thread nD τ).loc main_arg4))
    (Cert.KernelIdeal.HostSide.wrapCols (F := Ideal) (m ((c : Thread nD τ).loc main_arg5))) t.val ((cfg0.win 3).xinj (grid0.coords t) y)
    (((cfg0.win 3).blk t).view.emb y) (fun r b f n hn => ?_) h0 h1 h2
  have hv : V m c (Pipeline.arrRef spec0 0) (ix2 n (Cert.KernelIdeal.Body.colOf b f))
      = Cert.KernelIdeal.HostSide.aggT (F := Ideal) (m ((c : Thread nD τ).loc main_arg0)) (m ((c : Thread nD τ).loc main_arg1)) (m ((c : Thread nD τ).loc main_arg4))
          (m ((c : Thread nD τ).loc main_arg5)) (ix2 n (Cert.KernelIdeal.Body.colOf b f)) :=
    congrFun (Cert.KernelIdeal.HostSide.V_main_v14 m c) (ix2 n (Cert.KernelIdeal.Body.colOf b f))
  exact (iblk0_apply m c t r (Cert.KernelIdeal.Body.colOf b f) n hn).trans
    (hv.trans (Cert.KernelIdeal.HostSide.aggT_apply _ _ _ _ n b f (Cert.KernelIdeal.Body.colOf b f) rfl))

/-- An index of the result array is in point t's block iff each coordinate is in the block's range on its axis. -/
theorem mem_blk (t : Fin cfg0.N) (i : S4x50000x64.Idx) :
    i ∈ ((cfg0.win 3).blk t).view.set ↔ ∀ a : Fin 3, win0_3.index t a * S4x5000x64.size a ≤ (i a).val
      ∧ (i a).val < win0_3.index t a * S4x5000x64.size a + S4x5000x64.size a := by
  show i ∈ ((View.whole main_v15).slice (win0_3.rect t)).set ↔ _
  rw [View.set_slice_whole, Rect.mem_set_unit]
  exact Iff.rfl

/-- Every index of the result array is in some point's block: row n is in block n / 5000. -/
theorem cover (i : S4x50000x64.Idx) :
    ∃ t : Fin cfg0.N, (cfg0.win 3).flush t = true ∧ i ∈ ((cfg0.win 3).blk t).view.set := by
  have hi0 : (i 0).val < 4 := (i 0).isLt
  have hi1 : (i 1).val < 50000 := (i 1).isLt
  have hi2 : (i 2).val < 64 := (i 2).isLt
  have hN : cfg0.N = 10 := N_0
  have hlt : (i 1).val / 5000 < cfg0.N := by rw [hN]; omega
  obtain ⟨-, -, -, -, -, e5, e6, e7⟩ := idx_facts ⟨(i 1).val / 5000, hlt⟩
  have e6' : win0_3.index ⟨(i 1).val / 5000, hlt⟩ (1 : Fin 3) = (i 1).val / 5000 := e6
  refine ⟨⟨(i 1).val / 5000, hlt⟩, flush0_3 _, ?_⟩
  rw [mem_blk]
  intro a
  match a with
  | ⟨0, _⟩ =>
    show win0_3.index ⟨(i 1).val / 5000, hlt⟩ (0 : Fin 3) * 4 ≤ (i 0).val
      ∧ (i 0).val < win0_3.index ⟨(i 1).val / 5000, hlt⟩ (0 : Fin 3) * 4 + 4
    rw [e5]; omega
  | ⟨1, _⟩ =>
    show win0_3.index ⟨(i 1).val / 5000, hlt⟩ (1 : Fin 3) * 5000 ≤ (i 1).val
      ∧ (i 1).val < win0_3.index ⟨(i 1).val / 5000, hlt⟩ (1 : Fin 3) * 5000 + 5000
    rw [e6']; omega
  | ⟨2, _⟩ =>
    show win0_3.index ⟨(i 1).val / 5000, hlt⟩ (2 : Fin 3) * 64 ≤ (i 2).val
      ∧ (i 2).val < win0_3.index ⟨(i 1).val / 5000, hlt⟩ (2 : Fin 3) * 64 + 64
    rw [e7]; omega

/-- The array after the run is the specification's result. -/
theorem final (c : Dev nD) : (dats m 0 c).arrAt 3 cfg0.N = result m c :=
  (dats m 0 c).arrAt_eq_of_cover 3 (result m c) (fun t _ => flushed_eq m c t) cover

/-- The run, read: the result array at the specification's result, the arguments unchanged. -/
theorem run : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelIdeal.HandValue

end
-- ==== Proof.lean ====
/-
  A graph-convolution layer: out[b, n, :] = ELU(agg[b, n, :] · W + bias), where agg[b, n, f] is the sum, over the edges e
  whose destination row is n, of vals[e] · x[b, col(e), f].

  The kernel's program forms the aggregate with the batch folded into the columns (x laid as [node, 64·b + f], rows
  gathered at the edges' source nodes, scaled by the edge values, summed per destination row), and its kernel call,
  over ten blocks of 5000 nodes, multiplies each batch's 64 columns by W, adds the bias and applies ELU spelt as
  v > 0 ? v : exp(min(v, 0)) − 1.  The reference gathers x[:, cols, :], scales, sums per destination row in edge-major
  order, multiplies by W along the feature axis, adds the bias and applies ELU spelt as v > 0 ? v : 1 · expm1(v ≤ 0 ? v : 0).
  At the ideal values both are one function of the arguments (Spec.lean): the two layouts hold the same sums — a sum over
  the edges is the same sum in either layout, and the row block product is the whole product's rows —, and the two
  spellings of ELU agree at every extended real, the infinities included (where v ≤ 0 the minimum with 0 and the
  replaced value are both v, and 1 · y = y).  No law that needs finite entries is used, so the precondition is never
  opened.  The idealization rewrote nothing, so there is nothing to preserve; the kernels' frames are the generated
  ones and the reference's frame is its run with the result dropped.
-/
import proofs.«119495_j39479339384913_2_alg».proof.Defs
import proofs.«119495_j39479339384913_2_alg».proof.Proof.Gen.Kernel
import proofs.«119495_j39479339384913_2_alg».proof.Proof.Gen.Kernel.Frame
import proofs.«119495_j39479339384913_2_alg».proof.Proof.Gen.KernelIdeal
import proofs.«119495_j39479339384913_2_alg».proof.Proof.Gen.KernelIdeal.Frame
import proofs.«119495_j39479339384913_2_alg».proof.Proof.Gen.KernelIdeal.Value
import proofs.«119495_j39479339384913_2_alg».proof.Proof.Gen.ReferenceIdeal
import proofs.«119495_j39479339384913_2_alg».proof.Proof.Gen.Pre_finite_inputs
import proofs.«119495_j39479339384913_2_alg».proof.Proof.RefRun
import proofs.«119495_j39479339384913_2_alg».proof.Proof.RefValue
import proofs.«119495_j39479339384913_2_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.HandRun.run (F := Ideal) m ρ)

/-- From memories agreeing on the arguments both programs end with the specification's result of those arguments: the
    kernel's result array by its ten blocks, the reference's by its three stages read at an entry; the wrapped column
    words are spelt by the same operations in both programs. -/
theorem algebraic : Cert.algebraic_KernelIdeal_ReferenceIdeal := by
  intro m ρ m' ρ' _ hagree
  refine ⟨fun c => Cert.KernelIdeal.HandValue.result m c, Cert.KernelIdeal.HandValue.run m ρ, ?_⟩
  refine (θ_run Cert.ReferenceIdeal.defs _ _).mono (fun _ h c => ⟨(h c).1.trans ?_, (h c).2⟩)
    (Cert.ReferenceIdeal.HandRun.run (F := Ideal) m' ρ')
  obtain ⟨h0, h1, h2, h3, h4, h5⟩ := hagree c
  rw [h0, h1, h2, h3, h4, h5, Cert.ReferenceIdeal.HandValue.result_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
